-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S320000 : Shape := ⟨1, ![320000]⟩
abbrev S256x800 : Shape := ⟨2, ![256, 800]⟩
abbrev S800 : Shape := ⟨1, ![800]⟩
abbrev S800x128 : Shape := ⟨2, ![800, 128]⟩
abbrev S128 : Shape := ⟨1, ![128]⟩
abbrev S128x800 : Shape := ⟨2, ![128, 800]⟩
abbrev S800x256 : Shape := ⟨2, ![800, 256]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x800 : S_.BroadcastsInDim S256x800 (![] : Fin 0 → Fin S256x800.rank)
  reducesTo_S256x800_S_d0_1 : S256x800.ReducesTo [0, 1] S_
  bcast_S_S800 : S_.BroadcastsInDim S800 (![] : Fin 0 → Fin S800.rank)
  reducesTo_S800_S_d0 : S800.ReducesTo [0] S_
  bcast_S_S800x128 : S_.BroadcastsInDim S800x128 (![] : Fin 0 → Fin S800x128.rank)
  reducesTo_S800x128_S_d0_1 : S800x128.ReducesTo [0, 1] S_
  bcast_S_S128 : S_.BroadcastsInDim S128 (![] : Fin 0 → Fin S128.rank)
  reducesTo_S128_S_d0 : S128.ReducesTo [0] S_
  bcast_S_S128x800 : S_.BroadcastsInDim S128x800 (![] : Fin 0 → Fin S128x800.rank)
  reducesTo_S128x800_S_d0_1 : S128x800.ReducesTo [0, 1] S_
  bcast_S_S800x256 : S_.BroadcastsInDim S800x256 (![] : Fin 0 → Fin S800x256.rank)
  reducesTo_S800x256_S_d0_1 : S800x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S800x256 .f32) (main_arg10 : FVec F S256 .f32) (main_v33 : IVec S_ 1) : IVec S_ 1 :=
  let main_v34 : FVec F S800x256 .f32 := Host.absf main_arg9
  let main_cst_12 : FVec F S_ .f32 := constant S_ .f32 0x7F800000#32
  let main_v35 : FVec F S800x256 .f32 := broadcastInDim S800x256 ![] bcast_S_S800x256 main_cst_12
  let main_v36 : IVec S800x256 1 := cmpf .olt main_v34 main_v35
  let main_c_13 : IVec S_ 1 := constantI S_ 1 1#1
  let main_v37 : IVec S_ 1 := (fun x v => Host.reduce IntOp.andi x v reducesTo_S800x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg6 : FVec F S128 .f32) (main_arg7 : FVec F S128x800 .f32) (main_arg8 : FVec F S800 .f32) (main_arg9 : FVec F S800x256 .f32) (main_arg10 : FVec F S256 .f32) (main_v13 : IVec S_ 1) (main_v16 : IVec S800x128 1) : IVec S_ 1 :=
  let main_c_5 : IVec S_ 1 := constantI S_ 1 1#1
  let main_v17 : IVec S_ 1 := (fun x v => Host.reduce IntOp.andi x v reducesTo_S800x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x800 .f32 := Host.absf main_arg7
  let main_cst_8 : FVec F S_ .f32 := constant S_ .f32 0x7F800000#32
  let main_v25 : FVec F S128x800 .f32 := broadcastInDim S128x800 ![] bcast_S_S128x800 main_cst_8
  let main_v26 : IVec S128x800 1 := cmpf .olt main_v24 main_v25
  let main_c_9 : IVec S_ 1 := constantI S_ 1 1#1
  let main_v27 : IVec S_ 1 := (fun x v => Host.reduce IntOp.andi x v reducesTo_S128x800_S_d0_1 h_S_) main_v26 main_c_9
  let main_v28 : IVec S_ 1 := andi main_v23 main_v27
  let main_v29 : FVec F S800 .f32 := Host.absf main_arg8
  let main_cst_10 : FVec F S_ .f32 := constant S_ .f32 0x7F800000#32
  let main_v30 : FVec F S800 .f32 := broadcastInDim S800 ![] bcast_S_S800 main_cst_10
  let main_v31 : IVec S800 1 := cmpf .olt main_v29 main_v30
  let main_c_11 : IVec S_ 1 := constantI S_ 1 1#1
  let main_v32 : IVec S_ 1 := (fun x v => Host.reduce IntOp.andi x v reducesTo_S800_S_d0 h_S_) main_v31 main_c_11
  let main_v33 : IVec S_ 1 := andi main_v28 main_v32
  fn_part2 (F := F) main_arg9 main_arg10 main_v33

def fn {F : FTy → Type} [FloatOps F] (main_arg0 : FVec F S20000x256 .f32) (main_arg1 : IVec S320000 32) (main_arg2 : IVec S320000 32) (main_arg3 : FVec F S256x800 .f32) (main_arg4 : FVec F S800 .f32) (main_arg5 : FVec F S800x128 .f32) (main_arg6 : FVec F S128 .f32) (main_arg7 : FVec F S128x800 .f32) (main_arg8 : FVec F S800 .f32) (main_arg9 : FVec F S800x256 .f32) (main_arg10 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S256x800 .f32 := Host.absf main_arg3
  let main_cst_0 : FVec F S_ .f32 := constant S_ .f32 0x7F800000#32
  let main_v5 : FVec F S256x800 .f32 := broadcastInDim S256x800 ![] bcast_S_S256x800 main_cst_0
  let main_v6 : IVec S256x800 1 := cmpf .olt main_v4 main_v5
  let main_c_1 : IVec S_ 1 := constantI S_ 1 1#1
  let main_v7 : IVec S_ 1 := (fun x v => Host.reduce IntOp.andi x v reducesTo_S256x800_S_d0_1 h_S_) main_v6 main_c_1
  let main_v8 : IVec S_ 1 := andi main_v3 main_v7
  let main_v9 : FVec F S800 .f32 := Host.absf main_arg4
  let main_cst_2 : FVec F S_ .f32 := constant S_ .f32 0x7F800000#32
  let main_v10 : FVec F S800 .f32 := broadcastInDim S800 ![] bcast_S_S800 main_cst_2
  let main_v11 : IVec S800 1 := cmpf .olt main_v9 main_v10
  let main_c_3 : IVec S_ 1 := constantI S_ 1 1#1
  let main_v12 : IVec S_ 1 := (fun x v => Host.reduce IntOp.andi x v reducesTo_S800_S_d0 h_S_) main_v11 main_c_3
  let main_v13 : IVec S_ 1 := andi main_v8 main_v12
  let main_v14 : FVec F S800x128 .f32 := Host.absf main_arg5
  let main_cst_4 : FVec F S_ .f32 := constant S_ .f32 0x7F800000#32
  let main_v15 : FVec F S800x128 .f32 := broadcastInDim S800x128 ![] bcast_S_S800x128 main_cst_4
  let main_v16 : IVec S800x128 1 := cmpf .olt main_v14 main_v15
  fn_part1 (F := F) main_arg6 main_arg7 main_arg8 main_arg9 main_arg10 main_v13 main_v16
-- ==== Kernel.lean ====
abbrev S20000x256 : Shape := ⟨2, ![20000, 256]⟩
abbrev S320000 : Shape := ⟨1, ![320000]⟩
abbrev S256x800 : Shape := ⟨2, ![256, 800]⟩
abbrev S800 : Shape := ⟨1, ![800]⟩
abbrev S800x128 : Shape := ⟨2, ![800, 128]⟩
abbrev S128 : Shape := ⟨1, ![128]⟩
abbrev S128x800 : Shape := ⟨2, ![128, 800]⟩
abbrev S800x256 : Shape := ⟨2, ![800, 256]⟩
abbrev S256 : Shape := ⟨1, ![256]⟩
abbrev S_ : Shape := ⟨0, ![]⟩
abbrev S20000 : Shape := ⟨1, ![20000]⟩
abbrev S320000x1 : Shape := ⟨2, ![320000, 1]⟩
abbrev S20000x1 : Shape := ⟨2, ![20000, 1]⟩
abbrev S2000x256 : Shape := ⟨2, ![2000, 256]⟩
abbrev S2000x1 : Shape := ⟨2, ![2000, 1]⟩
abbrev S320000x256 : Shape := ⟨2, ![320000, 256]⟩
abbrev S1x800 : Shape := ⟨2, ![1, 800]⟩
abbrev S20000x128 : Shape := ⟨2, ![20000, 128]⟩
abbrev S2000x128 : Shape := ⟨2, ![2000, 128]⟩
abbrev S2000x800 : Shape := ⟨2, ![2000, 800]⟩
abbrev S320000x128 : Shape := ⟨2, ![320000, 128]⟩
abbrev S1x128 : Shape := ⟨2, ![1, 128]⟩
abbrev S1x256 : Shape := ⟨2, ![1, 256]⟩

abbrev nBuf : Space → Nat
  | .hbm => 95
  | .vmem => 46
  | .smem => 0
  | _ => 0

abbrev bufTy : (tb : Table) → Fin (tcTables nBuf tb) → BufTy
  | .hbm, ⟨0, _⟩ => ⟨S20000x256, .f32⟩
  | .hbm, ⟨1, _⟩ => ⟨S320000, .i32⟩
  | .hbm, ⟨2, _⟩ => ⟨S320000, .i32⟩
  | .hbm, ⟨3, _⟩ => ⟨S256x800, .f32⟩
  | .hbm, ⟨4, _⟩ => ⟨S800, .f32⟩
  | .hbm, ⟨5, _⟩ => ⟨S800x128, .f32⟩
  | .hbm, ⟨6, _⟩ => ⟨S128, .f32⟩
  | .hbm, ⟨7, _⟩ => ⟨S128x800, .f32⟩
  | .hbm, ⟨8, _⟩ => ⟨S800, .f32⟩
  | .hbm, ⟨9, _⟩ => ⟨S800x256, .f32⟩
  | .hbm, ⟨10, _⟩ => ⟨S256, .f32⟩
  | .hbm, ⟨11, _⟩ => ⟨S_, .f32⟩
  | .hbm, ⟨12, _⟩ => ⟨S320000, .f32⟩
  | .hbm, ⟨13, _⟩ => ⟨S_, .f32⟩
  | .hbm, ⟨14, _⟩ => ⟨S20000, .f32⟩
  | .hbm, ⟨15, _⟩ => ⟨S320000x1, .i32⟩
  | .hbm, ⟨16, _⟩ => ⟨S20000, .f32⟩
  | .hbm, ⟨17, _⟩ => ⟨S_, .f32⟩
  | .hbm, ⟨18, _⟩ => ⟨S20000, .f32⟩
  | .hbm, ⟨19, _⟩ => ⟨S20000, .f32⟩
  | .hbm, ⟨20, _⟩ => ⟨S20000, .f32⟩
  | .hbm, ⟨21, _⟩ => ⟨S20000x1, .f32⟩
  | .hbm, ⟨22, _⟩ => ⟨S_, .f32⟩
  | .hbm, ⟨23, _⟩ => ⟨S320000, .f32⟩
  | .hbm, ⟨24, _⟩ => ⟨S_, .f32⟩
  | .hbm, ⟨25, _⟩ => ⟨S20000, .f32⟩
  | .hbm, ⟨26, _⟩ => ⟨S320000x1, .i32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S20000, .f32⟩
  | .hbm, ⟨32, _⟩ => ⟨S20000x1, .f32⟩
  | .hbm, ⟨33, _⟩ => ⟨S20000x256, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x256, .f32⟩
  | .hbm, ⟨43, _⟩ => ⟨S_, .f32⟩
  | .hbm, ⟨44, _⟩ => ⟨S20000x256, .f32⟩
  | .hbm, ⟨45, _⟩ => ⟨S320000x1, .i32⟩
  | .hbm, ⟨46, _⟩ => ⟨S20000x256, .f32⟩
  | .hbm, ⟨47, _⟩ => ⟨S1x800, .f32⟩
  | .hbm, ⟨48, _⟩ => ⟨S20000x128, .f32⟩
  | .hbm, ⟨49, _⟩ => ⟨S_, .i32⟩
  | .hbm, ⟨50, _⟩ => ⟨S320000, .i32⟩
  | .hbm, ⟨51, _⟩ => ⟨S320000, .i1⟩
  | .hbm, ⟨52, _⟩ => ⟨S_, .i32⟩
  | .hbm, ⟨53, _⟩ => ⟨S320000, .i32⟩
  | .hbm, ⟨54, _⟩ => ⟨S320000, .i32⟩
  | .hbm, ⟨55, _⟩ => ⟨S320000, .i32⟩
  | .hbm, ⟨56, _⟩ => ⟨S320000x1, .i32⟩
  | .hbm, ⟨57, _⟩ => ⟨S320000x128, .f32⟩
  | .hbm, ⟨58, _⟩ => ⟨S_, .f32⟩
  | .hbm, ⟨59, _⟩ => ⟨S20000x128, .f32⟩
  | .hbm, ⟨60, _⟩ => ⟨S320000x1, .i32⟩
  | .hbm, ⟨61, _⟩ => ⟨S20000x128, .f32⟩
  | .hbm, ⟨62, _⟩ => ⟨S1x128, .f32⟩
  | .hbm, ⟨63, _⟩ => ⟨S20000x128, .f32⟩
  | .hbm, ⟨64, _⟩ => ⟨S20000x128, .f32⟩
  | .hbm, ⟨65, _⟩ => ⟨S_, .i32⟩
  | .hbm, ⟨66, _⟩ => ⟨S320000, .i32⟩
  | .hbm, ⟨67, _⟩ => ⟨S320000, .i1⟩
  | .hbm, ⟨68, _⟩ => ⟨S_, .i32⟩
  | .hbm, ⟨69, _⟩ => ⟨S320000, .i32⟩
  | .hbm, ⟨70, _⟩ => ⟨S320000, .i32⟩
  | .hbm, ⟨71, _⟩ => ⟨S320000, .i32⟩
  | .hbm, ⟨72, _⟩ => ⟨S320000x1, .i32⟩
  | .hbm, ⟨73, _⟩ => ⟨S320000x128, .f32⟩
  | .hbm, ⟨74, _⟩ => ⟨S_, .f32⟩
  | .hbm, ⟨75, _⟩ => ⟨S20000x128, .f32⟩
  | .hbm, ⟨76, _⟩ => ⟨S320000x1, .i32⟩
  | .hbm, ⟨77, _⟩ => ⟨S20000x128, .f32⟩
  | .hbm, ⟨78, _⟩ => ⟨S1x800, .f32⟩
  | .hbm, ⟨79, _⟩ => ⟨S20000x256, .f32⟩
  | .hbm, ⟨80, _⟩ => ⟨S_, .i32⟩
  | .hbm, ⟨81, _⟩ => ⟨S320000, .i32⟩
  | .hbm, ⟨82, _⟩ => ⟨S320000, .i1⟩
  | .hbm, ⟨83, _⟩ => ⟨S_, .i32⟩
  | .hbm, ⟨84, _⟩ => ⟨S320000, .i32⟩
  | .hbm, ⟨85, _⟩ => ⟨S320000, .i32⟩
  | .hbm, ⟨86, _⟩ => ⟨S320000, .i32⟩
  | .hbm, ⟨87, _⟩ => ⟨S320000x1, .i32⟩
  | .hbm, ⟨88, _⟩ => ⟨S320000x256, .f32⟩
  | .hbm, ⟨89, _⟩ => ⟨S_, .f32⟩
  | .hbm, ⟨90, _⟩ => ⟨S20000x256, .f32⟩
  | .hbm, ⟨91, _⟩ => ⟨S320000x1, .i32⟩
  | .hbm, ⟨92, _⟩ => ⟨S20000x256, .f32⟩
  | .hbm, ⟨93, _⟩ => ⟨S1x256, .f32⟩
  | .hbm, ⟨94, _⟩ => ⟨S20000x256, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x800, .f32⟩
  | .local _ .vmem, ⟨9, _⟩ => ⟨S2000x1, .f32⟩
  | .local _ .vmem, ⟨10, _⟩ => ⟨S2000x1, .f32⟩
  | .local _ .vmem, ⟨11, _⟩ => ⟨S1x800, .f32⟩
  | .local _ .vmem, ⟨12, _⟩ => ⟨S800x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S2000x1, .f32⟩
  | .local _ .vmem, ⟨23, _⟩ => ⟨S2000x1, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x800, .f32⟩
  | .local _ .vmem, ⟨31, _⟩ => ⟨S2000x1, .f32⟩
  | .local _ .vmem, ⟨32, _⟩ => ⟨S2000x1, .f32⟩
  | .local _ .vmem, ⟨33, _⟩ => ⟨S1x800, .f32⟩
  | .local _ .vmem, ⟨34, _⟩ => ⟨S800x256, .f32⟩
  | .local _ .vmem, ⟨35, _⟩ => ⟨S2000x1, .f32⟩
  | .local _ .vmem, ⟨36, _⟩ => ⟨S2000x1, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x1, .f32⟩
  | .local _ .vmem, ⟨42, _⟩ => ⟨S2000x1, .f32⟩
  | .local _ .vmem, ⟨43, _⟩ => ⟨S1x256, .f32⟩
  | .local _ .vmem, ⟨44, _⟩ => ⟨S2000x256, .f32⟩
  | .local _ .vmem, ⟨45, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40_0 : Ref sig .tc := ⟨.hbm, 63, rfl⟩
abbrev main_v40_1 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_13 : Ref sig .tc := ⟨.hbm, 80, rfl⟩
abbrev main_v53 : Ref sig .tc := ⟨.hbm, 81, rfl⟩
abbrev main_v54 : Ref sig .tc := ⟨.hbm, 82, rfl⟩
abbrev main_c_14 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_15 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg6_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg3_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36
abbrev cc3_sem6_0 : DmaSem sig := 37
abbrev cc3_sem6_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem3_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x800 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x800 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S800x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x800 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x800 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S800x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  shapeCasts_S20000_S20000x1 : S20000.ShapeCasts S20000x1
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S_S20000x256 : S_.BroadcastsInDim S20000x256 (![] : Fin 0 → Fin S20000x256.rank)
  shapeCasts_S800_S1x800 : S800.ShapeCasts S1x800
  shapeCasts_S2000x256_S2000x256 : S2000x256.ShapeCasts S2000x256
  bitsLt_bf16_f32 : FTy.bits .bf16 < FTy.bits .f32
  inb_S256x800_S256x800_0_0 : ∀ a, (![0, 0] : Fin 2 → Nat) a + S256x800.size a ≤ S256x800.size a
  h_S256x800 : 0 < S256x800.numel
  broadcasts_S2000x1_S2000x800 : S2000x1.Broadcasts S2000x800
  inb_S1x800_S1x800_0_0 : ∀ a, (![0, 0] : Fin 2 → Nat) a + S1x800.size a ≤ S1x800.size a
  h_S1x800 : 0 < S1x800.numel
  shapeCasts_S1x800_S1x800 : S1x800.ShapeCasts S1x800
  broadcasts_S1x800_S2000x800 : S1x800.Broadcasts S2000x800
  inb_S800x128_S800x128_0_0 : ∀ a, (![0, 0] : Fin 2 → Nat) a + S800x128.size a ≤ S800x128.size a
  h_S800x128 : 0 < S800x128.numel
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S20000x128 : S_.BroadcastsInDim S20000x128 (![] : Fin 0 → Fin S20000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x800_S128x800_0_0 : ∀ a, (![0, 0] : Fin 2 → Nat) a + S128x800.size a ≤ S128x800.size a
  h_S128x800 : 0 < S128x800.numel
  inb_S800x256_S800x256_0_0 : ∀ a, (![0, 0] : Fin 2 → Nat) a + S800x256.size a ≤ S800x256.size a
  h_S800x256 : 0 < S800x256.numel
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S20000_S320000x1_S320000_n_0_0_1_wf : ScatterDims.WF S20000 S320000x1 S320000 [] [0] [0] 1
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S2000x256_S256x800_S2000x800_1_0_0_1_n_n_wf : DotDims.WF S2000x256 S256x800 S2000x800 [1] [0] [0] [1] [] []
  dot_S2000x800_S800x128_S2000x128_1_0_0_1_n_n_wf : DotDims.WF S2000x800 S800x128 S2000x128 [1] [0] [0] [1] [] []
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S2000x128_S128x800_S2000x800_1_0_0_1_n_n_wf : DotDims.WF S2000x128 S128x800 S2000x800 [1] [0] [0] [1] [] []
  dot_S2000x800_S800x256_S2000x256_1_0_0_1_n_n_wf : DotDims.WF S2000x800 S800x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S20000x1.size a
  hwx0_1 : ∀ i : grid0.Coords, EltTy.bits .f32 = 32 ∨ (Rect.block (s := S20000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x800.size a ≤ S256x800.size a
  hwx1_1 : ∀ i : grid1.Coords, EltTy.bits .f32 = 32 ∨ (Rect.block (s := S256x800) S256x800.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S20000x1.size a
  hwx1_2 : ∀ i : grid1.Coords, EltTy.bits .f32 = 32 ∨ (Rect.block (s := S20000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x800.size a ≤ S1x800.size a
  hwx1_3 : ∀ i : grid1.Coords, EltTy.bits .f32 = 32 ∨ (Rect.block (s := S1x800) S1x800.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S800x128.size a ≤ S800x128.size a
  hwx1_4 : ∀ i : grid1.Coords, EltTy.bits .f32 = 32 ∨ (Rect.block (s := S800x128) S800x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S20000x1.size a
  hwx1_5 : ∀ i : grid1.Coords, EltTy.bits .f32 = 32 ∨ (Rect.block (s := S20000x1) S2000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S20000x128.size a
  hwx1_6 : ∀ i : grid1.Coords, EltTy.bits .f32 = 32 ∨ (Rect.block (s := S20000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S20000x1.size a
  hwx2_1 : ∀ i : grid2.Coords, EltTy.bits .f32 = 32 ∨ (Rect.block (s := S20000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S20000x1.size a
  hwx2_3 : ∀ i : grid2.Coords, EltTy.bits .f32 = 32 ∨ (Rect.block (s := S20000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S20000x128.size a
  hwx2_4 : ∀ i : grid2.Coords, EltTy.bits .f32 = 32 ∨ (Rect.block (s := S20000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S20000x128.size a
  hwx2_5 : ∀ i : grid2.Coords, EltTy.bits .f32 = 32 ∨ (Rect.block (s := S20000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S20000x128.size a
  hwx3_0 : ∀ i : grid3.Coords, EltTy.bits .f32 = 32 ∨ (Rect.block (s := S20000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x800.size a ≤ S128x800.size a
  hwx3_1 : ∀ i : grid3.Coords, EltTy.bits .f32 = 32 ∨ (Rect.block (s := S128x800) S128x800.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S20000x1.size a
  hwx3_2 : ∀ i : grid3.Coords, EltTy.bits .f32 = 32 ∨ (Rect.block (s := S20000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x800.size a ≤ S1x800.size a
  hwx3_3 : ∀ i : grid3.Coords, EltTy.bits .f32 = 32 ∨ (Rect.block (s := S1x800) S1x800.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S800x256.size a ≤ S800x256.size a
  hwx3_4 : ∀ i : grid3.Coords, EltTy.bits .f32 = 32 ∨ (Rect.block (s := S800x256) S800x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S20000x1.size a
  hwx3_5 : ∀ i : grid3.Coords, EltTy.bits .f32 = 32 ∨ (Rect.block (s := S20000x1) S2000x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S20000x256.size a
  hwx3_6 : ∀ i : grid3.Coords, EltTy.bits .f32 = 32 ∨ (Rect.block (s := S20000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S20000x1.size a
  hwx4_1 : ∀ i : grid4.Coords, EltTy.bits .f32 = 32 ∨ (Rect.block (s := S20000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S20000x256.size a
  hwx4_3 : ∀ i : grid4.Coords, EltTy.bits .f32 = 32 ∨ (Rect.block (s := S20000x256) S2000x256.size (cc4_transform_3 i) (hinb4_3 i)).WholeWords (EltTy.packing .f32)

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x800_S2000x800_1_0_0_1_n_n : DotDims S2000x256 S256x800 S2000x800 where
  lhsContracting := [1]
  rhsContracting := [0]
  lhsNonContracting := [0]
  rhsNonContracting := [1]
  lhsBatch := []
  rhsBatch := []
  wf := dot_S2000x256_S256x800_S2000x800_1_0_0_1_n_n_wf
def dot_S2000x800_S800x128_S2000x128_1_0_0_1_n_n : DotDims S2000x800 S800x128 S2000x128 where
  lhsContracting := [1]
  rhsContracting := [0]
  lhsNonContracting := [0]
  rhsNonContracting := [1]
  lhsBatch := []
  rhsBatch := []
  wf := dot_S2000x800_S800x128_S2000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S2000x128_S128x800_S2000x800_1_0_0_1_n_n : DotDims S2000x128 S128x800 S2000x800 where
  lhsContracting := [1]
  rhsContracting := [0]
  lhsNonContracting := [0]
  rhsNonContracting := [1]
  lhsBatch := []
  rhsBatch := []
  wf := dot_S2000x128_S128x800_S2000x800_1_0_0_1_n_n_wf
def dot_S2000x800_S800x256_S2000x256_1_0_0_1_n_n : DotDims S2000x800 S800x256 S2000x256 where
  lhsContracting := [1]
  rhsContracting := [0]
  lhsNonContracting := [0]
  rhsNonContracting := [1]
  lhsBatch := []
  rhsBatch := []
  wf := dot_S2000x800_S800x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x800.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x800.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S800x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S2000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v28) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v38) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v40_1) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x800.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x800.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S800x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v52) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v62) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S20000x256 : Shape := ⟨2, ![20000, 256]⟩
abbrev S320000 : Shape := ⟨1, ![320000]⟩
abbrev S256x800 : Shape := ⟨2, ![256, 800]⟩
abbrev S800 : Shape := ⟨1, ![800]⟩
abbrev S800x128 : Shape := ⟨2, ![800, 128]⟩
abbrev S128 : Shape := ⟨1, ![128]⟩
abbrev S128x800 : Shape := ⟨2, ![128, 800]⟩
abbrev S800x256 : Shape := ⟨2, ![800, 256]⟩
abbrev S256 : Shape := ⟨1, ![256]⟩
abbrev S_ : Shape := ⟨0, ![]⟩
abbrev S20000 : Shape := ⟨1, ![20000]⟩
abbrev S320000x1 : Shape := ⟨2, ![320000, 1]⟩
abbrev S20000x1 : Shape := ⟨2, ![20000, 1]⟩
abbrev S320000x256 : Shape := ⟨2, ![320000, 256]⟩
abbrev S20000x800 : Shape := ⟨2, ![20000, 800]⟩
abbrev S1x800 : Shape := ⟨2, ![1, 800]⟩
abbrev S20000x128 : Shape := ⟨2, ![20000, 128]⟩
abbrev S320000x128 : Shape := ⟨2, ![320000, 128]⟩
abbrev S1x128 : Shape := ⟨2, ![1, 128]⟩
abbrev S1x256 : Shape := ⟨2, ![1, 256]⟩

abbrev nBuf : Space → Nat
  | .hbm => 205
  | .vmem => 0
  | .smem => 0
  | _ => 0

abbrev hbmTy0_0 (i : Nat) : BufTy := match i % 128 with
  | 0 => ⟨S20000x256, .f32⟩
  | 1 => ⟨S320000, .i32⟩
  | 2 => ⟨S320000, .i32⟩
  | 3 => ⟨S256x800, .f32⟩
  | 4 => ⟨S800, .f32⟩
  | 5 => ⟨S800x128, .f32⟩
  | 6 => ⟨S128, .f32⟩
  | 7 => ⟨S128x800, .f32⟩
  | 8 => ⟨S800, .f32⟩
  | 9 => ⟨S800x256, .f32⟩
  | 10 => ⟨S256, .f32⟩
  | 11 => ⟨S_, .f32⟩
  | 12 => ⟨S320000, .f32⟩
  | 13 => ⟨S_, .f32⟩
  | 14 => ⟨S20000, .f32⟩
  | 15 => ⟨S320000x1, .i32⟩
  | 16 => ⟨S20000, .f32⟩
  | 17 => ⟨S_, .f32⟩
  | 18 => ⟨S20000, .f32⟩
  | 19 => ⟨S20000, .f32⟩
  | 20 => ⟨S20000, .f32⟩
  | 21 => ⟨S_, .f32⟩
  | 22 => ⟨S320000, .f32⟩
  | 23 => ⟨S_, .f32⟩
  | 24 => ⟨S20000, .f32⟩
  | 25 => ⟨S320000x1, .i32⟩
  | 26 => ⟨S20000, .f32⟩
  | 27 => ⟨S_, .f32⟩
  | 28 => ⟨S20000, .f32⟩
  | 29 => ⟨S20000, .f32⟩
  | 30 => ⟨S20000, .f32⟩
  | 31 => ⟨S20000x1, .f32⟩
  | 32 => ⟨S20000x256, .f32⟩
  | 33 => ⟨S20000x256, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S320000x256, .f32⟩
  | 43 => ⟨S_, .f32⟩
  | 44 => ⟨S20000x256, .f32⟩
  | 45 => ⟨S320000x1, .i32⟩
  | 46 => ⟨S20000x256, .f32⟩
  | 47 => ⟨S20000x800, .f32⟩
  | 48 => ⟨S20000x1, .f32⟩
  | 49 => ⟨S20000x800, .f32⟩
  | 50 => ⟨S20000x800, .f32⟩
  | 51 => ⟨S1x800, .f32⟩
  | 52 => ⟨S20000x800, .f32⟩
  | 53 => ⟨S20000x800, .f32⟩
  | 54 => ⟨S_, .f32⟩
  | 55 => ⟨S20000x800, .f32⟩
  | 56 => ⟨S20000x800, .f32⟩
  | 57 => ⟨S_, .f32⟩
  | 58 => ⟨S320000, .f32⟩
  | 59 => ⟨S_, .f32⟩
  | 60 => ⟨S20000, .f32⟩
  | 61 => ⟨S320000x1, .i32⟩
  | 62 => ⟨S20000, .f32⟩
  | 63 => ⟨S_, .f32⟩
  | 64 => ⟨S20000, .f32⟩
  | 65 => ⟨S20000, .f32⟩
  | 66 => ⟨S20000, .f32⟩
  | 67 => ⟨S_, .f32⟩
  | 68 => ⟨S320000, .f32⟩
  | 69 => ⟨S_, .f32⟩
  | 70 => ⟨S20000, .f32⟩
  | 71 => ⟨S320000x1, .i32⟩
  | 72 => ⟨S20000, .f32⟩
  | 73 => ⟨S_, .f32⟩
  | 74 => ⟨S20000, .f32⟩
  | 75 => ⟨S20000, .f32⟩
  | 76 => ⟨S20000, .f32⟩
  | 77 => ⟨S20000x128, .f32⟩
  | 78 => ⟨S20000x1, .f32⟩
  | 79 => ⟨S20000x128, .f32⟩
  | 80 => ⟨S20000x128, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000x128, .f32⟩
  | 90 => ⟨S_, .f32⟩
  | 91 => ⟨S20000x128, .f32⟩
  | 92 => ⟨S320000x1, .i32⟩
  | 93 => ⟨S20000x128, .f32⟩
  | 94 => ⟨S20000x1, .f32⟩
  | 95 => ⟨S20000x128, .f32⟩
  | 96 => ⟨S20000x128, .f32⟩
  | 97 => ⟨S1x128, .f32⟩
  | 98 => ⟨S20000x128, .f32⟩
  | 99 => ⟨S20000x128, .f32⟩
  | 100 => ⟨S20000x128, .f32⟩
  | 101 => ⟨S20000x128, .f32⟩
  | 102 => ⟨S_, .f32⟩
  | 103 => ⟨S20000x128, .f32⟩
  | 104 => ⟨S20000x128, .f32⟩
  | 105 => ⟨S_, .f32⟩
  | 106 => ⟨S20000x128, .f32⟩
  | 107 => ⟨S20000x128, .f32⟩
  | 108 => ⟨S_, .f32⟩
  | 109 => ⟨S320000, .f32⟩
  | 110 => ⟨S_, .f32⟩
  | 111 => ⟨S20000, .f32⟩
  | 112 => ⟨S320000x1, .i32⟩
  | 113 => ⟨S20000, .f32⟩
  | 114 => ⟨S_, .f32⟩
  | 115 => ⟨S20000, .f32⟩
  | 116 => ⟨S20000, .f32⟩
  | 117 => ⟨S20000, .f32⟩
  | 118 => ⟨S_, .f32⟩
  | 119 => ⟨S320000, .f32⟩
  | 120 => ⟨S_, .f32⟩
  | 121 => ⟨S20000, .f32⟩
  | 122 => ⟨S320000x1, .i32⟩
  | 123 => ⟨S20000, .f32⟩
  | 124 => ⟨S_, .f32⟩
  | 125 => ⟨S20000, .f32⟩
  | 126 => ⟨S20000, .f32⟩
  | 127 => ⟨S20000, .f32⟩
  | _ => ⟨S20000x256, .f32⟩

abbrev hbmTy0_1 (i : Nat) : BufTy := match i % 128 with
  | 0 => ⟨S20000x1, .f32⟩
  | 1 => ⟨S20000x128, .f32⟩
  | 2 => ⟨S20000x128, .f32⟩
  | 3 => ⟨S_, .i32⟩
  | 4 => ⟨S320000, .i32⟩
  | 5 => ⟨S320000, .i1⟩
  | 6 => ⟨S_, .i32⟩
  | 7 => ⟨S320000, .i32⟩
  | 8 => ⟨S320000, .i32⟩
  | 9 => ⟨S320000, .i32⟩
  | 10 => ⟨S320000x1, .i32⟩
  | 11 => ⟨S320000x128, .f32⟩
  | 12 => ⟨S_, .f32⟩
  | 13 => ⟨S20000x128, .f32⟩
  | 14 => ⟨S320000x1, .i32⟩
  | 15 => ⟨S20000x128, .f32⟩
  | 16 => ⟨S20000x800, .f32⟩
  | 17 => ⟨S20000x1, .f32⟩
  | 18 => ⟨S20000x800, .f32⟩
  | 19 => ⟨S20000x800, .f32⟩
  | 20 => ⟨S1x800, .f32⟩
  | 21 => ⟨S20000x800, .f32⟩
  | 22 => ⟨S20000x800, .f32⟩
  | 23 => ⟨S_, .f32⟩
  | 24 => ⟨S20000x800, .f32⟩
  | 25 => ⟨S20000x800, .f32⟩
  | 26 => ⟨S_, .f32⟩
  | 27 => ⟨S320000, .f32⟩
  | 28 => ⟨S_, .f32⟩
  | 29 => ⟨S20000, .f32⟩
  | 30 => ⟨S320000x1, .i32⟩
  | 31 => ⟨S20000, .f32⟩
  | 32 => ⟨S_, .f32⟩
  | 33 => ⟨S20000, .f32⟩
  | 34 => ⟨S20000, .f32⟩
  | 35 => ⟨S20000, .f32⟩
  | 36 => ⟨S_, .f32⟩
  | 37 => ⟨S320000, .f32⟩
  | 38 => ⟨S_, .f32⟩
  | 39 => ⟨S20000, .f32⟩
  | 40 => ⟨S320000x1, .i32⟩
  | 41 => ⟨S20000, .f32⟩
  | 42 => ⟨S_, .f32⟩
  | 43 => ⟨S20000, .f32⟩
  | 44 => ⟨S20000, .f32⟩
  | 45 => ⟨S20000, .f32⟩
  | 46 => ⟨S20000x256, .f32⟩
  | 47 => ⟨S20000x1, .f32⟩
  | 48 => ⟨S20000x256, .f32⟩
  | 49 => ⟨S20000x256, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000x256, .f32⟩
  | 59 => ⟨S_, .f32⟩
  | 60 => ⟨S20000x256, .f32⟩
  | 61 => ⟨S320000x1, .i32⟩
  | 62 => ⟨S20000x256, .f32⟩
  | 63 => ⟨S20000x1, .f32⟩
  | 64 => ⟨S20000x256, .f32⟩
  | 65 => ⟨S20000x256, .f32⟩
  | 66 => ⟨S1x256, .f32⟩
  | 67 => ⟨S20000x256, .f32⟩
  | 68 => ⟨S20000x256, .f32⟩
  | 69 => ⟨S20000x256, .f32⟩
  | 70 => ⟨S20000x256, .f32⟩
  | 71 => ⟨S_, .f32⟩
  | 72 => ⟨S20000x256, .f32⟩
  | 73 => ⟨S20000x256, .f32⟩
  | 74 => ⟨S_, .f32⟩
  | 75 => ⟨S20000x256, .f32⟩
  | 76 => ⟨S20000x256, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call0_cst : Ref sig .tc := ⟨.hbm, 54, rfl⟩
abbrev main_call0_v0 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_10 : Ref sig .tc := ⟨.hbm, 67, rfl⟩
abbrev main_v42 : Ref sig .tc := ⟨.hbm, 68, rfl⟩
abbrev main_cst_11 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_13 : Ref sig .tc := ⟨.hbm, 81, rfl⟩
abbrev main_v53 : Ref sig .tc := ⟨.hbm, 82, rfl⟩
abbrev main_v54 : Ref sig .tc := ⟨.hbm, 83, rfl⟩
abbrev main_c_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_15 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_v72 : Ref sig .tc := ⟨.hbm, 104, rfl⟩
abbrev main_cst_17 : Ref sig .tc := ⟨.hbm, 105, rfl⟩
abbrev main_v73 : Ref sig .tc := ⟨.hbm, 106, rfl⟩
abbrev main_v74 : Ref sig .tc := ⟨.hbm, 107, rfl⟩
abbrev main_cst_18 : Ref sig .tc := ⟨.hbm, 108, rfl⟩
abbrev main_v75 : Ref sig .tc := ⟨.hbm, 109, rfl⟩
abbrev main_cst_19 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_20 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_21 : Ref sig .tc := ⟨.hbm, 118, rfl⟩
abbrev main_v82 : Ref sig .tc := ⟨.hbm, 119, rfl⟩
abbrev main_cst_22 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_23 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_24 : Ref sig .tc := ⟨.hbm, 131, rfl⟩
abbrev main_v92 : Ref sig .tc := ⟨.hbm, 132, rfl⟩
abbrev main_v93 : Ref sig .tc := ⟨.hbm, 133, rfl⟩
abbrev main_c_25 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_26 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_call1_cst : Ref sig .tc := ⟨.hbm, 151, rfl⟩
abbrev main_call1_v0 : Ref sig .tc := ⟨.hbm, 152, rfl⟩
abbrev main_v109 : Ref sig .tc := ⟨.hbm, 153, rfl⟩
abbrev main_cst_27 : Ref sig .tc := ⟨.hbm, 154, rfl⟩
abbrev main_v110 : Ref sig .tc := ⟨.hbm, 155, rfl⟩
abbrev main_cst_28 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_29 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_30 : Ref sig .tc := ⟨.hbm, 164, rfl⟩
abbrev main_v117 : Ref sig .tc := ⟨.hbm, 165, rfl⟩
abbrev main_cst_31 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_32 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_c_33 : Ref sig .tc := ⟨.hbm, 178, rfl⟩
abbrev main_v128 : Ref sig .tc := ⟨.hbm, 179, rfl⟩
abbrev main_v129 : Ref sig .tc := ⟨.hbm, 180, rfl⟩
abbrev main_c_34 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_35 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_cst_36 : Ref sig .tc := ⟨.hbm, 199, rfl⟩
abbrev main_v146 : Ref sig .tc := ⟨.hbm, 200, rfl⟩
abbrev main_v147 : Ref sig .tc := ⟨.hbm, 201, rfl⟩
abbrev main_cst_37 : Ref sig .tc := ⟨.hbm, 202, rfl⟩
abbrev main_v148 : Ref sig .tc := ⟨.hbm, 203, rfl⟩
abbrev main_v149 : Ref sig .tc := ⟨.hbm, 204, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S_S20000x256 : S_.BroadcastsInDim S20000x256 (![] : Fin 0 → Fin S20000x256.rank)
  bcast_S20000x1_S20000x800_0_1 : S20000x1.BroadcastsInDim S20000x800 (![0, 1] : Fin 2 → Fin S20000x800.rank)
  bcast_S800_S1x800_1 : S800.BroadcastsInDim S1x800 (![1] : Fin 1 → Fin S1x800.rank)
  bcast_S1x800_S20000x800_0_1 : S1x800.BroadcastsInDim S20000x800 (![0, 1] : Fin 2 → Fin S20000x800.rank)
  bcast_S_S20000x800 : S_.BroadcastsInDim S20000x800 (![] : Fin 0 → Fin S20000x800.rank)
  bcast_S20000x1_S20000x128_0_1 : S20000x1.BroadcastsInDim S20000x128 (![0, 1] : Fin 2 → Fin S20000x128.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  scatter_S20000_S320000x1_S320000_n_0_0_1_wf : ScatterDims.WF S20000 S320000x1 S320000 [] [0] [0] 1
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x800_S20000x800_1_0_0_1_n_n_wf : DotDims.WF S20000x256 S256x800 S20000x800 [1] [0] [0] [1] [] []
  dot_S20000x800_S800x128_S20000x128_1_0_0_1_n_n_wf : DotDims.WF S20000x800 S800x128 S20000x128 [1] [0] [0] [1] [] []
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S20000x128_S128x800_S20000x800_1_0_0_1_n_n_wf : DotDims.WF S20000x128 S128x800 S20000x800 [1] [0] [0] [1] [] []
  dot_S20000x800_S800x256_S20000x256_1_0_0_1_n_n_wf : DotDims.WF S20000x800 S800x256 S20000x256 [1] [0] [0] [1] [] []

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x800_S20000x800_1_0_0_1_n_n : DotDims S20000x256 S256x800 S20000x800 where
  lhsContracting := [1]
  rhsContracting := [0]
  lhsNonContracting := [0]
  rhsNonContracting := [1]
  lhsBatch := []
  rhsBatch := []
  wf := dot_S20000x256_S256x800_S20000x800_1_0_0_1_n_n_wf
def dot_S20000x800_S800x128_S20000x128_1_0_0_1_n_n : DotDims S20000x800 S800x128 S20000x128 where
  lhsContracting := [1]
  rhsContracting := [0]
  lhsNonContracting := [0]
  rhsNonContracting := [1]
  lhsBatch := []
  rhsBatch := []
  wf := dot_S20000x800_S800x128_S20000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S20000x128_S128x800_S20000x800_1_0_0_1_n_n : DotDims S20000x128 S128x800 S20000x800 where
  lhsContracting := [1]
  rhsContracting := [0]
  lhsNonContracting := [0]
  rhsNonContracting := [1]
  lhsBatch := []
  rhsBatch := []
  wf := dot_S20000x128_S128x800_S20000x800_1_0_0_1_n_n_wf
def dot_S20000x800_S800x256_S20000x256_1_0_0_1_n_n : DotDims S20000x800 S800x256 S20000x256 where
  lhsContracting := [1]
  rhsContracting := [0]
  lhsNonContracting := [0]
  rhsNonContracting := [1]
  lhsBatch := []
  rhsBatch := []
  wf := dot_S20000x800_S800x256_S20000x256_1_0_0_1_n_n_wf

class Facts : Prop extends Facts₀ where

variable [Facts]
-- ==== Proof.KRun.lean ====
/-
  The idealized kernel's run with its two result arrays NAMED.  The program is ten segments — a stretch of host
  operations, then a row-tiled region, five times over — and the contents of every unscoped buffer at the last
  boundary are the fold `W10` of the launch memory through those segments.  Every weakly fair execution ends with
  the encoder's output and the decoder's output at that fold's values and the eleven argument arrays as launched.
-/
import proofs.«111293_j90314572300354_2_alg».proof.Proof.Gen.KernelIdeal.Frame

set_option maxRecDepth 16384

noncomputable section

namespace Cert.KernelIdeal.RunVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two results at the last boundary's contents
    and the arguments as launched: the segments' chain read against the final state, the results by name, each
    argument walked back to the launch memory. -/
theorem run_values : θ_run defs (onTc (τ := τ) (main (F := F))) ⟨m, fun _ => 0, ρ⟩ (fun r => ∀ c : Dev nD,
      r.2.mem ((c.tc : Thread nD τ).loc main_v40_0) = W10 m ρ c (Proc.devRef .tc main_v40_0)
      ∧ r.2.mem ((c.tc : Thread nD τ).loc main_v64) = W10 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v40_0 (by decide)),
       h c _ (mem_uc main_v64 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.RunVal

end
-- ==== Proof.Spec.lean ====
/-
  The five row-tiled stages of the graph auto-encoder, each as ONE function of whole arrays, index by index,
  on the extended reals.  A matrix with `a` rows and `b` columns is a function on the rank-2 index set; a per-node
  scale is a one-column matrix and a bias a one-row matrix.

  * `rowScale X s`        — row p of X multiplied by s(p,0)                      (features scaled before aggregation)
  * `hidden A W nd b`     — max((A·W)(p,q)·nd(p,0) + b(0,q), 0)                  (aggregate, project, normalise, bias, relu)
  * `fusedPair …`         — ((hidden …)·W2)(p,q)·ns(p,0)                         (the second projection, scaled for the next aggregation)
  * `affine A nd b`       — A(p,q)·nd(p,0) + b(0,q)
  * `squash A nd b`       — the logistic function of `affine`
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `a` rows and `b` columns. -/
abbrev Mat (a b : Nat) := (⟨2, ![a, b]⟩ : Shape).Idx → EReal

/-- The row coordinate of a matrix index, typed by the literal extent. -/
abbrev rowOf {a b : Nat} (i : (⟨2, ![a, b]⟩ : Shape).Idx) : Fin a := ⟨(i 0).val, idx2_lt0 i⟩
/-- The column coordinate of a matrix index, typed by the literal extent. -/
abbrev colOf {a b : Nat} (i : (⟨2, ![a, b]⟩ : Shape).Idx) : Fin b := ⟨(i 1).val, idx2_lt1 i⟩

/-- The zero word of the relu, kept as the word both programs print. -/
abbrev zeroWord : EReal := Ideal.ofBits .f32 0x00000000#32

/-- Row `p` of `X` multiplied by the scale of node `p`. -/
def rowScale {a b : Nat} (X : Mat a b) (s : Mat a 1) : Mat a b :=
  fun i => X i * s (ix2 (rowOf i) (0 : Fin 1))

/-- Aggregated features projected by `W`, normalised per node, biased, clamped below at zero. -/
def hidden {a k h : Nat} (A : Mat a k) (W : Mat k h) (nd : Mat a 1) (b : Mat 1 h) : Mat a h :=
  fun i => max ((∑ j : Fin k, A (ix2 (rowOf i) j) * W (ix2 j (colOf i))) * nd (ix2 (rowOf i) (0 : Fin 1))
    + b (ix2 (0 : Fin 1) (colOf i))) zeroWord

/-- The hidden layer projected by `W2` and scaled per node for the next aggregation. -/
def fusedPair {a k h o : Nat} (A : Mat a k) (W1 : Mat k h) (nd : Mat a 1) (b : Mat 1 h) (W2 : Mat h o) (ns : Mat a 1) :
    Mat a o :=
  fun i => (∑ j : Fin h, hidden A W1 nd b (ix2 (rowOf i) j) * W2 (ix2 j (colOf i))) * ns (ix2 (rowOf i) (0 : Fin 1))

/-- Aggregated features normalised per node and biased. -/
def affine {a b : Nat} (A : Mat a b) (nd : Mat a 1) (bias : Mat 1 b) : Mat a b :=
  fun i => A i * nd (ix2 (rowOf i) (0 : Fin 1)) + bias (ix2 (0 : Fin 1) (colOf i))

/-- The logistic function of the normalised, biased aggregate. -/
def squash {a b : Nat} (A : Mat a b) (nd : Mat a 1) (bias : Mat 1 b) : Mat a b :=
  fun i => Ideal.logistic (affine A nd bias i)

end Cert.Spec

end
-- ==== Proof.Chain.lean ====
/-
  The graph side of the auto-encoder, shared word for word by both programs, as whole-array functions: the per-node
  normaliser rsqrt(max(degree, 1)) of an edge-endpoint list, the edge gather-and-sum `aggregate` (row src(e) of the
  features added into row dst(e), for every edge e), and the two layouts of a vector as a one-column and as a
  one-row matrix.  On top of them the kernel's value: five row-tiled stages of Spec with an aggregation between them.
-/
import proofs.«111293_j90314572300354_2_alg».proof.Proof.Gen.KernelIdeal
import proofs.«111293_j90314572300354_2_alg».proof.Proof.Spec

noncomputable section

namespace Cert.KernelIdeal.Chain

open Idealize.ShloMosaic Cert.KernelIdeal Cert.KernelIdeal.Facts₀

/-- An edge-endpoint list: one node number per edge. -/
abbrev Edges := IVec S320000 32

/-- rsqrt(max(deg, 1)) per node, deg the number of edges whose endpoint in `idx` is the node. -/
def nrm (idx : Edges) : FVec Ideal S20000 .f32 :=
  Host.rsqrt (maximumf
    (Host.scatterAdd scatter_S20000_S320000x1_S320000_n_0_0_1
      (broadcastInDim S20000 ![] bcast_S_S20000 (constant S_ .f32 0x00000000#32))
      (broadcastInDim S320000x1 ![0] bcast_S320000_S320000x1_0 idx)
      (broadcastInDim S320000 ![] bcast_S_S320000 (constant S_ .f32 0x3F800000#32)))
    (broadcastInDim S20000 ![] bcast_S_S20000 (constant S_ .f32 0x3F800000#32)))

/-- The source endpoints as gather start indices: a negative node number wraps by the node count. -/
def startIx (src : Edges) : IVec S320000x1 32 :=
  broadcastInDim S320000x1 ![0] bcast_S320000_S320000x1_0
    (select (cmpi .slt src (broadcastInDim S320000 ![] bcast_S_S320000 (constantI S_ 32 0#32)))
      (addi src (broadcastInDim S320000 ![] bcast_S_S320000 (constantI S_ 32 20000#32))) src)

/-- Row src(e) of `h` added into row dst(e), over all edges, for 256 features. -/
def aggregate256 (h : FVec Ideal S20000x256 .f32) (src dst : Edges) :
    FVec Ideal S20000x256 .f32 :=
  Host.scatterAdd scatter_S20000x256_S320000x1_S320000x256_1_0_0_1
    (broadcastInDim S20000x256 ![] bcast_S_S20000x256 (constant S_ .f32 0x00000000#32))
    (broadcastInDim S320000x1 ![0] bcast_S320000_S320000x1_0 dst)
    (Host.gather gather_S20000x256_S320000x1_S320000x256_1_0_n_n_0_1_1256 h (startIx src))

/-- The same for 128 features. -/
def aggregate128 (h : FVec Ideal S20000x128 .f32) (src dst : Edges) :
    FVec Ideal S20000x128 .f32 :=
  Host.scatterAdd scatter_S20000x128_S320000x1_S320000x128_1_0_0_1
    (broadcastInDim S20000x128 ![] bcast_S_S20000x128 (constant S_ .f32 0x00000000#32))
    (broadcastInDim S320000x1 ![0] bcast_S320000_S320000x1_0 dst)
    (Host.gather gather_S20000x128_S320000x1_S320000x128_1_0_n_n_0_1_1128 h (startIx src))

/-- A per-node vector as a one-column matrix. -/
def col (v : FVec Ideal S20000 .f32) : FVec Ideal S20000x1 .f32 :=
  fun i => shapeCast S20000x1 v shapeCasts_S20000_S20000x1 i
/-- A bias vector as a one-row matrix, for each of the three widths. -/
def row800 (b : FVec Ideal S800 .f32) : FVec Ideal S1x800 .f32 :=
  fun i => shapeCast S1x800 b shapeCasts_S800_S1x800 i
def row128 (b : FVec Ideal S128 .f32) : FVec Ideal S1x128 .f32 :=
  fun i => shapeCast S1x128 b shapeCasts_S128_S1x128 i
def row256 (b : FVec Ideal S256 .f32) : FVec Ideal S1x256 .f32 :=
  fun i => shapeCast S1x256 b shapeCasts_S256_S1x256 i

section Value
variable (x : FVec Ideal S20000x256 .f32) (src dst : Edges)
  (W1 : FVec Ideal S256x800 .f32) (b1 : FVec Ideal S800 .f32)
  (W2 : FVec Ideal S800x128 .f32) (b2 : FVec Ideal S128 .f32)
  (W3 : FVec Ideal S128x800 .f32) (b3 : FVec Ideal S800 .f32)
  (W4 : FVec Ideal S800x256 .f32) (b4 : FVec Ideal S256 .f32)

/-- The input scaled by the source-side normaliser. -/
def scaled : FVec Ideal S20000x256 .f32 := Cert.Spec.rowScale x (col (nrm src))
/-- Layers one and two up to the second aggregation. -/
def pre2 : FVec Ideal S20000x128 .f32 :=
  Cert.Spec.fusedPair (aggregate256 (scaled x src) src dst) W1 (col (nrm dst)) (row800 b1) W2 (col (nrm src))
/-- The encoder's output. -/
def encoded : FVec Ideal S20000x128 .f32 :=
  Cert.Spec.squash (aggregate128 (pre2 x src dst W1 b1 W2) src dst) (col (nrm dst)) (row128 b2)
/-- The code before the logistic function, scaled for layer three. -/
def code3 : FVec Ideal S20000x128 .f32 :=
  Cert.Spec.rowScale (Cert.Spec.affine (aggregate128 (pre2 x src dst W1 b1 W2) src dst) (col (nrm dst)) (row128 b2)) (col (nrm src))
/-- Layers three and four up to the last aggregation. -/
def pre4 : FVec Ideal S20000x256 .f32 :=
  Cert.Spec.fusedPair (aggregate128 (code3 x src dst W1 b1 W2 b2) src dst) W3 (col (nrm dst)) (row800 b3) W4 (col (nrm src))
/-- The decoder's output. -/
def decoded : FVec Ideal S20000x256 .f32 :=
  Cert.Spec.squash (aggregate256 (pre4 x src dst W1 b1 W2 b2 W3 b3 W4) src dst) (col (nrm dst)) (row256 b4)

end Value

end Cert.KernelIdeal.Chain

end
-- ==== Proof.Fold.lean ====
/-
  The contents of the buffers the kernel's stages read, boundary by boundary.  The run is a fold of the launch
  memory through ten segments: a stretch of host operations writes the buffers it defines and keeps every other,
  a row-tiled region leaves its input arrays as it found them, writes its output arrays, and keeps every other
  buffer.  Walking the fold forward: the arguments and the two normaliser columns persist to where they are last
  read; each region's output array is its stage of Spec applied to what the region found (the hypotheses
  `RegionValues`, one per output window); each aggregation is the shared gather-and-sum of the stage before it.
  At the last boundary the two results are the encoder's and the decoder's values of Chain.
-/
import proofs.«111293_j90314572300354_2_alg».proof.Proof.Gen.KernelIdeal.Frame
import proofs.«111293_j90314572300354_2_alg».proof.Proof.Chain

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

/-- What each region's output array holds after the region, for any contents `V` the region is entered with:
    the region's stage applied to its input arrays. -/
structure RegionValues : Prop where
  r0 : ∀ (V : (c : Dev nD) → (b : Ref sig .tc) → Buf (Elt Ideal) ((c : Thread nD τ).loc b)) (c : Dev nD),
    (dat0 (F := Ideal) V c).arrAt 2 cfg0.N = Cert.Spec.rowScale (V c main_arg0) (V c main_v7)
  r1 : ∀ (V : (c : Dev nD) → (b : Ref sig .tc) → Buf (Elt Ideal) ((c : Thread nD τ).loc b)) (c : Dev nD),
    (dat1 (F := Ideal) V c).arrAt 6 cfg1.N
      = Cert.Spec.fusedPair (V c main_v26) (V c main_arg3) (V c main_v15) (V c main_v27) (V c main_arg5) (V c main_v7)
  r2e : ∀ (V : (c : Dev nD) → (b : Ref sig .tc) → Buf (Elt Ideal) ((c : Thread nD τ).loc b)) (c : Dev nD),
    (dat2 (F := Ideal) V c).arrAt 4 cfg2.N = Cert.Spec.squash (V c main_v38) (V c main_v15) (V c main_v39)
  r2n : ∀ (V : (c : Dev nD) → (b : Ref sig .tc) → Buf (Elt Ideal) ((c : Thread nD τ).loc b)) (c : Dev nD),
    (dat2 (F := Ideal) V c).arrAt 5 cfg2.N
      = Cert.Spec.rowScale (Cert.Spec.affine (V c main_v38) (V c main_v15) (V c main_v39)) (V c main_v7)
  r3 : ∀ (V : (c : Dev nD) → (b : Ref sig .tc) → Buf (Elt Ideal) ((c : Thread nD τ).loc b)) (c : Dev nD),
    (dat3 (F := Ideal) V c).arrAt 6 cfg3.N
      = Cert.Spec.fusedPair (V c main_v50) (V c main_arg7) (V c main_v15) (V c main_v51) (V c main_arg9) (V c main_v7)
  r4 : ∀ (V : (c : Dev nD) → (b : Ref sig .tc) → Buf (Elt Ideal) ((c : Thread nD τ).loc b)) (c : Dev nD),
    (dat4 (F := Ideal) V c).arrAt 3 cfg4.N = Cert.Spec.squash (V c main_v62) (V c main_v15) (V c main_v63)

variable (R : RegionValues)
variable (m : (ℓ : Loc nD τ sig) → Buf (Elt Ideal) ℓ) (ρ : Dev nD → PrngReg) (c : Dev nD)
include R

/-! ### Boundary 1 -/

theorem w1_arg0 : W1 m ρ c (Proc.devRef .tc main_arg0) = (m ((c : Thread nD τ).loc main_arg0)) := by
  dsimp only [W1, hostOps0]; after_results
theorem w1_arg1 : W1 m ρ c (Proc.devRef .tc main_arg1) = (m ((c : Thread nD τ).loc main_arg1)) := by
  dsimp only [W1, hostOps0]; after_results
theorem w1_arg2 : W1 m ρ c (Proc.devRef .tc main_arg2) = (m ((c : Thread nD τ).loc main_arg2)) := by
  dsimp only [W1, hostOps0]; after_results
theorem w1_arg3 : W1 m ρ c (Proc.devRef .tc main_arg3) = (m ((c : Thread nD τ).loc main_arg3)) := by
  dsimp only [W1, hostOps0]; after_results
theorem w1_arg4 : W1 m ρ c (Proc.devRef .tc main_arg4) = (m ((c : Thread nD τ).loc main_arg4)) := by
  dsimp only [W1, hostOps0]; after_results
theorem w1_arg5 : W1 m ρ c (Proc.devRef .tc main_arg5) = (m ((c : Thread nD τ).loc main_arg5)) := by
  dsimp only [W1, hostOps0]; after_results
theorem w1_arg6 : W1 m ρ c (Proc.devRef .tc main_arg6) = (m ((c : Thread nD τ).loc main_arg6)) := by
  dsimp only [W1, hostOps0]; after_results
theorem w1_arg7 : W1 m ρ c (Proc.devRef .tc main_arg7) = (m ((c : Thread nD τ).loc main_arg7)) := by
  dsimp only [W1, hostOps0]; after_results
theorem w1_arg8 : W1 m ρ c (Proc.devRef .tc main_arg8) = (m ((c : Thread nD τ).loc main_arg8)) := by
  dsimp only [W1, hostOps0]; after_results
theorem w1_arg9 : W1 m ρ c (Proc.devRef .tc main_arg9) = (m ((c : Thread nD τ).loc main_arg9)) := by
  dsimp only [W1, hostOps0]; after_results
theorem w1_arg10 : W1 m ρ c (Proc.devRef .tc main_arg10) = (m ((c : Thread nD τ).loc main_arg10)) := by
  dsimp only [W1, hostOps0]; after_results
theorem w1_v7 : W1 m ρ c (Proc.devRef .tc main_v7) = (Chain.col (Chain.nrm (m ((c : Thread nD τ).loc main_arg1)))) := by
  dsimp only [W1, hostOps0]; after_results; rfl
theorem w1_v15 : W1 m ρ c (Proc.devRef .tc main_v15) = (Chain.col (Chain.nrm (m ((c : Thread nD τ).loc main_arg2)))) := by
  dsimp only [W1, hostOps0]; after_results; rfl

/-! ### Boundary 2 -/

theorem w2_arg1 : W2 m ρ c (Proc.devRef .tc main_arg1) = (m ((c : Thread nD τ).loc main_arg1)) :=
  (W2_of_ne m ρ c main_arg1 (by decide)).trans (w1_arg1 R m ρ c)
theorem w2_arg2 : W2 m ρ c (Proc.devRef .tc main_arg2) = (m ((c : Thread nD τ).loc main_arg2)) :=
  (W2_of_ne m ρ c main_arg2 (by decide)).trans (w1_arg2 R m ρ c)
theorem w2_arg3 : W2 m ρ c (Proc.devRef .tc main_arg3) = (m ((c : Thread nD τ).loc main_arg3)) :=
  (W2_of_ne m ρ c main_arg3 (by decide)).trans (w1_arg3 R m ρ c)
theorem w2_arg4 : W2 m ρ c (Proc.devRef .tc main_arg4) = (m ((c : Thread nD τ).loc main_arg4)) :=
  (W2_of_ne m ρ c main_arg4 (by decide)).trans (w1_arg4 R m ρ c)
theorem w2_arg5 : W2 m ρ c (Proc.devRef .tc main_arg5) = (m ((c : Thread nD τ).loc main_arg5)) :=
  (W2_of_ne m ρ c main_arg5 (by decide)).trans (w1_arg5 R m ρ c)
theorem w2_arg6 : W2 m ρ c (Proc.devRef .tc main_arg6) = (m ((c : Thread nD τ).loc main_arg6)) :=
  (W2_of_ne m ρ c main_arg6 (by decide)).trans (w1_arg6 R m ρ c)
theorem w2_arg7 : W2 m ρ c (Proc.devRef .tc main_arg7) = (m ((c : Thread nD τ).loc main_arg7)) :=
  (W2_of_ne m ρ c main_arg7 (by decide)).trans (w1_arg7 R m ρ c)
theorem w2_arg8 : W2 m ρ c (Proc.devRef .tc main_arg8) = (m ((c : Thread nD τ).loc main_arg8)) :=
  (W2_of_ne m ρ c main_arg8 (by decide)).trans (w1_arg8 R m ρ c)
theorem w2_arg9 : W2 m ρ c (Proc.devRef .tc main_arg9) = (m ((c : Thread nD τ).loc main_arg9)) :=
  (W2_of_ne m ρ c main_arg9 (by decide)).trans (w1_arg9 R m ρ c)
theorem w2_arg10 : W2 m ρ c (Proc.devRef .tc main_arg10) = (m ((c : Thread nD τ).loc main_arg10)) :=
  (W2_of_ne m ρ c main_arg10 (by decide)).trans (w1_arg10 R m ρ c)
theorem w2_v15 : W2 m ρ c (Proc.devRef .tc main_v15) = (Chain.col (Chain.nrm (m ((c : Thread nD τ).loc main_arg2)))) :=
  (W2_of_ne m ρ c main_v15 (by decide)).trans (w1_v15 R m ρ c)
theorem w2_v7 : W2 m ρ c (Proc.devRef .tc main_v7) = (Chain.col (Chain.nrm (m ((c : Thread nD τ).loc main_arg1)))) :=
  (W2_arr m ρ c 1).trans (((dat0 (V1 m ρ) c).arrAt_in 1 rfl _).trans ((A_eq0 (V1 m ρ) c 1).trans (w1_v7 R m ρ c)))
theorem w2_v16 : W2 m ρ c (Proc.devRef .tc main_v16) = (Chain.scaled (m ((c : Thread nD τ).loc main_arg0)) (m ((c : Thread nD τ).loc main_arg1))) := by
  refine (W2_arr m ρ c 2).trans ((R.r0 (V1 m ρ) c).trans ?_)
  rw [show V1 m ρ c main_arg0 = _ from w1_arg0 R m ρ c,
    show V1 m ρ c main_v7 = _ from w1_v7 R m ρ c]
  rfl

/-! ### Boundary 3 -/

theorem w3_arg1 : W3 m ρ c (Proc.devRef .tc main_arg1) = (m ((c : Thread nD τ).loc main_arg1)) := by
  dsimp only [W3, hostOps1]; after_results; exact w2_arg1 R m ρ c
theorem w3_arg2 : W3 m ρ c (Proc.devRef .tc main_arg2) = (m ((c : Thread nD τ).loc main_arg2)) := by
  dsimp only [W3, hostOps1]; after_results; exact w2_arg2 R m ρ c
theorem w3_arg3 : W3 m ρ c (Proc.devRef .tc main_arg3) = (m ((c : Thread nD τ).loc main_arg3)) := by
  dsimp only [W3, hostOps1]; after_results; exact w2_arg3 R m ρ c
theorem w3_arg5 : W3 m ρ c (Proc.devRef .tc main_arg5) = (m ((c : Thread nD τ).loc main_arg5)) := by
  dsimp only [W3, hostOps1]; after_results; exact w2_arg5 R m ρ c
theorem w3_arg6 : W3 m ρ c (Proc.devRef .tc main_arg6) = (m ((c : Thread nD τ).loc main_arg6)) := by
  dsimp only [W3, hostOps1]; after_results; exact w2_arg6 R m ρ c
theorem w3_arg7 : W3 m ρ c (Proc.devRef .tc main_arg7) = (m ((c : Thread nD τ).loc main_arg7)) := by
  dsimp only [W3, hostOps1]; after_results; exact w2_arg7 R m ρ c
theorem w3_arg8 : W3 m ρ c (Proc.devRef .tc main_arg8) = (m ((c : Thread nD τ).loc main_arg8)) := by
  dsimp only [W3, hostOps1]; after_results; exact w2_arg8 R m ρ c
theorem w3_arg9 : W3 m ρ c (Proc.devRef .tc main_arg9) = (m ((c : Thread nD τ).loc main_arg9)) := by
  dsimp only [W3, hostOps1]; after_results; exact w2_arg9 R m ρ c
theorem w3_arg10 : W3 m ρ c (Proc.devRef .tc main_arg10) = (m ((c : Thread nD τ).loc main_arg10)) := by
  dsimp only [W3, hostOps1]; after_results; exact w2_arg10 R m ρ c
theorem w3_v15 : W3 m ρ c (Proc.devRef .tc main_v15) = (Chain.col (Chain.nrm (m ((c : Thread nD τ).loc main_arg2)))) := by
  dsimp only [W3, hostOps1]; after_results; exact w2_v15 R m ρ c
theorem w3_v7 : W3 m ρ c (Proc.devRef .tc main_v7) = (Chain.col (Chain.nrm (m ((c : Thread nD τ).loc main_arg1)))) := by
  dsimp only [W3, hostOps1]; after_results; exact w2_v7 R m ρ c
set_option maxHeartbeats 1600000 in
theorem w3_v26 : W3 m ρ c (Proc.devRef .tc main_v26) = (Chain.aggregate256 (Chain.scaled (m ((c : Thread nD τ).loc main_arg0)) (m ((c : Thread nD τ).loc main_arg1))) (m ((c : Thread nD τ).loc main_arg1)) (m ((c : Thread nD τ).loc main_arg2))) := by
  have h : W3 m ρ c (Proc.devRef .tc main_v26) = Chain.aggregate256 (W2 m ρ c (Proc.devRef .tc main_v16)) (W2 m ρ c (Proc.devRef .tc main_arg1)) (W2 m ρ c (Proc.devRef .tc main_arg2)) := by
    dsimp only [W3, hostOps1]; after_results; rfl
  rw [h, w2_v16 R m ρ c, w2_arg1 R m ρ c, w2_arg2 R m ρ c]
set_option maxHeartbeats 1600000 in
theorem w3_v27 : W3 m ρ c (Proc.devRef .tc main_v27) = (Chain.row800 (m ((c : Thread nD τ).loc main_arg4))) := by
  have h : W3 m ρ c (Proc.devRef .tc main_v27) = Chain.row800 (W2 m ρ c (Proc.devRef .tc main_arg4)) := by
    dsimp only [W3, hostOps1]; after_results; rfl
  rw [h, w2_arg4 R m ρ c]

/-! ### Boundary 4 -/

theorem w4_arg1 : W4 m ρ c (Proc.devRef .tc main_arg1) = (m ((c : Thread nD τ).loc main_arg1)) :=
  (W4_of_ne m ρ c main_arg1 (by decide)).trans (w3_arg1 R m ρ c)
theorem w4_arg2 : W4 m ρ c (Proc.devRef .tc main_arg2) = (m ((c : Thread nD τ).loc main_arg2)) :=
  (W4_of_ne m ρ c main_arg2 (by decide)).trans (w3_arg2 R m ρ c)
theorem w4_arg6 : W4 m ρ c (Proc.devRef .tc main_arg6) = (m ((c : Thread nD τ).loc main_arg6)) :=
  (W4_of_ne m ρ c main_arg6 (by decide)).trans (w3_arg6 R m ρ c)
theorem w4_arg7 : W4 m ρ c (Proc.devRef .tc main_arg7) = (m ((c : Thread nD τ).loc main_arg7)) :=
  (W4_of_ne m ρ c main_arg7 (by decide)).trans (w3_arg7 R m ρ c)
theorem w4_arg8 : W4 m ρ c (Proc.devRef .tc main_arg8) = (m ((c : Thread nD τ).loc main_arg8)) :=
  (W4_of_ne m ρ c main_arg8 (by decide)).trans (w3_arg8 R m ρ c)
theorem w4_arg9 : W4 m ρ c (Proc.devRef .tc main_arg9) = (m ((c : Thread nD τ).loc main_arg9)) :=
  (W4_of_ne m ρ c main_arg9 (by decide)).trans (w3_arg9 R m ρ c)
theorem w4_arg10 : W4 m ρ c (Proc.devRef .tc main_arg10) = (m ((c : Thread nD τ).loc main_arg10)) :=
  (W4_of_ne m ρ c main_arg10 (by decide)).trans (w3_arg10 R m ρ c)
theorem w4_v15 : W4 m ρ c (Proc.devRef .tc main_v15) = (Chain.col (Chain.nrm (m ((c : Thread nD τ).loc main_arg2)))) :=
  (W4_arr m ρ c 2).trans (((dat1 (V3 m ρ) c).arrAt_in 2 rfl _).trans ((A_eq1 (V3 m ρ) c 2).trans (w3_v15 R m ρ c)))
theorem w4_v7 : W4 m ρ c (Proc.devRef .tc main_v7) = (Chain.col (Chain.nrm (m ((c : Thread nD τ).loc main_arg1)))) :=
  (W4_arr m ρ c 5).trans (((dat1 (V3 m ρ) c).arrAt_in 5 rfl _).trans ((A_eq1 (V3 m ρ) c 5).trans (w3_v7 R m ρ c)))
theorem w4_v28 : W4 m ρ c (Proc.devRef .tc main_v28) = (Chain.pre2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W4_arr m ρ c 6).trans ((R.r1 (V3 m ρ) c).trans ?_)
  rw [show V3 m ρ c main_v26 = _ from w3_v26 R m ρ c,
    show V3 m ρ c main_arg3 = _ from w3_arg3 R m ρ c,
    show V3 m ρ c main_v15 = _ from w3_v15 R m ρ c,
    show V3 m ρ c main_v27 = _ from w3_v27 R m ρ c,
    show V3 m ρ c main_arg5 = _ from w3_arg5 R m ρ c,
    show V3 m ρ c main_v7 = _ from w3_v7 R m ρ c]
  rfl

/-! ### Boundary 5 -/

theorem w5_arg1 : W5 m ρ c (Proc.devRef .tc main_arg1) = (m ((c : Thread nD τ).loc main_arg1)) := by
  dsimp only [W5, hostOps2]; after_results; exact w4_arg1 R m ρ c
theorem w5_arg2 : W5 m ρ c (Proc.devRef .tc main_arg2) = (m ((c : Thread nD τ).loc main_arg2)) := by
  dsimp only [W5, hostOps2]; after_results; exact w4_arg2 R m ρ c
theorem w5_arg7 : W5 m ρ c (Proc.devRef .tc main_arg7) = (m ((c : Thread nD τ).loc main_arg7)) := by
  dsimp only [W5, hostOps2]; after_results; exact w4_arg7 R m ρ c
theorem w5_arg8 : W5 m ρ c (Proc.devRef .tc main_arg8) = (m ((c : Thread nD τ).loc main_arg8)) := by
  dsimp only [W5, hostOps2]; after_results; exact w4_arg8 R m ρ c
theorem w5_arg9 : W5 m ρ c (Proc.devRef .tc main_arg9) = (m ((c : Thread nD τ).loc main_arg9)) := by
  dsimp only [W5, hostOps2]; after_results; exact w4_arg9 R m ρ c
theorem w5_arg10 : W5 m ρ c (Proc.devRef .tc main_arg10) = (m ((c : Thread nD τ).loc main_arg10)) := by
  dsimp only [W5, hostOps2]; after_results; exact w4_arg10 R m ρ c
theorem w5_v15 : W5 m ρ c (Proc.devRef .tc main_v15) = (Chain.col (Chain.nrm (m ((c : Thread nD τ).loc main_arg2)))) := by
  dsimp only [W5, hostOps2]; after_results; exact w4_v15 R m ρ c
theorem w5_v7 : W5 m ρ c (Proc.devRef .tc main_v7) = (Chain.col (Chain.nrm (m ((c : Thread nD τ).loc main_arg1)))) := by
  dsimp only [W5, hostOps2]; after_results; exact w4_v7 R m ρ c
set_option maxHeartbeats 1600000 in
theorem w5_v38 : W5 m ρ c (Proc.devRef .tc main_v38) = (Chain.aggregate128 (Chain.pre2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2))) := by
  have h : W5 m ρ c (Proc.devRef .tc main_v38) = Chain.aggregate128 (W4 m ρ c (Proc.devRef .tc main_v28)) (W4 m ρ c (Proc.devRef .tc main_arg1)) (W4 m ρ c (Proc.devRef .tc main_arg2)) := by
    dsimp only [W5, hostOps2]; after_results; rfl
  rw [h, w4_v28 R m ρ c, w4_arg1 R m ρ c, w4_arg2 R m ρ c]
set_option maxHeartbeats 1600000 in
theorem w5_v39 : W5 m ρ c (Proc.devRef .tc main_v39) = (Chain.row128 (m ((c : Thread nD τ).loc main_arg6))) := by
  have h : W5 m ρ c (Proc.devRef .tc main_v39) = Chain.row128 (W4 m ρ c (Proc.devRef .tc main_arg6)) := by
    dsimp only [W5, hostOps2]; after_results; rfl
  rw [h, w4_arg6 R m ρ c]

/-! ### Boundary 6 -/

theorem w6_arg1 : W6 m ρ c (Proc.devRef .tc main_arg1) = (m ((c : Thread nD τ).loc main_arg1)) :=
  (W6_of_ne m ρ c main_arg1 (by decide)).trans (w5_arg1 R m ρ c)
theorem w6_arg2 : W6 m ρ c (Proc.devRef .tc main_arg2) = (m ((c : Thread nD τ).loc main_arg2)) :=
  (W6_of_ne m ρ c main_arg2 (by decide)).trans (w5_arg2 R m ρ c)
theorem w6_arg7 : W6 m ρ c (Proc.devRef .tc main_arg7) = (m ((c : Thread nD τ).loc main_arg7)) :=
  (W6_of_ne m ρ c main_arg7 (by decide)).trans (w5_arg7 R m ρ c)
theorem w6_arg8 : W6 m ρ c (Proc.devRef .tc main_arg8) = (m ((c : Thread nD τ).loc main_arg8)) :=
  (W6_of_ne m ρ c main_arg8 (by decide)).trans (w5_arg8 R m ρ c)
theorem w6_arg9 : W6 m ρ c (Proc.devRef .tc main_arg9) = (m ((c : Thread nD τ).loc main_arg9)) :=
  (W6_of_ne m ρ c main_arg9 (by decide)).trans (w5_arg9 R m ρ c)
theorem w6_arg10 : W6 m ρ c (Proc.devRef .tc main_arg10) = (m ((c : Thread nD τ).loc main_arg10)) :=
  (W6_of_ne m ρ c main_arg10 (by decide)).trans (w5_arg10 R m ρ c)
theorem w6_v15 : W6 m ρ c (Proc.devRef .tc main_v15) = (Chain.col (Chain.nrm (m ((c : Thread nD τ).loc main_arg2)))) :=
  (W6_arr m ρ c 1).trans (((dat2 (V5 m ρ) c).arrAt_in 1 rfl _).trans ((A_eq2 (V5 m ρ) c 1).trans (w5_v15 R m ρ c)))
theorem w6_v7 : W6 m ρ c (Proc.devRef .tc main_v7) = (Chain.col (Chain.nrm (m ((c : Thread nD τ).loc main_arg1)))) :=
  (W6_arr m ρ c 3).trans (((dat2 (V5 m ρ) c).arrAt_in 3 rfl _).trans ((A_eq2 (V5 m ρ) c 3).trans (w5_v7 R m ρ c)))
theorem w6_v40_0 : W6 m ρ c (Proc.devRef .tc main_v40_0) = (Chain.encoded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W6_arr m ρ c 4).trans ((R.r2e (V5 m ρ) c).trans ?_)
  rw [show V5 m ρ c main_v38 = _ from w5_v38 R m ρ c,
    show V5 m ρ c main_v15 = _ from w5_v15 R m ρ c,
    show V5 m ρ c main_v39 = _ from w5_v39 R m ρ c]
  rfl
theorem w6_v40_1 : W6 m ρ c (Proc.devRef .tc main_v40_1) = (Chain.code3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W6_arr m ρ c 5).trans ((R.r2n (V5 m ρ) c).trans ?_)
  rw [show V5 m ρ c main_v38 = _ from w5_v38 R m ρ c,
    show V5 m ρ c main_v15 = _ from w5_v15 R m ρ c,
    show V5 m ρ c main_v39 = _ from w5_v39 R m ρ c,
    show V5 m ρ c main_v7 = _ from w5_v7 R m ρ c]
  rfl

/-! ### Boundary 7 -/

theorem w7_arg1 : W7 m ρ c (Proc.devRef .tc main_arg1) = (m ((c : Thread nD τ).loc main_arg1)) := by
  dsimp only [W7, hostOps3]; after_results; exact w6_arg1 R m ρ c
theorem w7_arg2 : W7 m ρ c (Proc.devRef .tc main_arg2) = (m ((c : Thread nD τ).loc main_arg2)) := by
  dsimp only [W7, hostOps3]; after_results; exact w6_arg2 R m ρ c
theorem w7_arg7 : W7 m ρ c (Proc.devRef .tc main_arg7) = (m ((c : Thread nD τ).loc main_arg7)) := by
  dsimp only [W7, hostOps3]; after_results; exact w6_arg7 R m ρ c
theorem w7_arg9 : W7 m ρ c (Proc.devRef .tc main_arg9) = (m ((c : Thread nD τ).loc main_arg9)) := by
  dsimp only [W7, hostOps3]; after_results; exact w6_arg9 R m ρ c
theorem w7_arg10 : W7 m ρ c (Proc.devRef .tc main_arg10) = (m ((c : Thread nD τ).loc main_arg10)) := by
  dsimp only [W7, hostOps3]; after_results; exact w6_arg10 R m ρ c
theorem w7_v15 : W7 m ρ c (Proc.devRef .tc main_v15) = (Chain.col (Chain.nrm (m ((c : Thread nD τ).loc main_arg2)))) := by
  dsimp only [W7, hostOps3]; after_results; exact w6_v15 R m ρ c
theorem w7_v7 : W7 m ρ c (Proc.devRef .tc main_v7) = (Chain.col (Chain.nrm (m ((c : Thread nD τ).loc main_arg1)))) := by
  dsimp only [W7, hostOps3]; after_results; exact w6_v7 R m ρ c
theorem w7_v40_0 : W7 m ρ c (Proc.devRef .tc main_v40_0) = (Chain.encoded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  dsimp only [W7, hostOps3]; after_results; exact w6_v40_0 R m ρ c
set_option maxHeartbeats 1600000 in
theorem w7_v50 : W7 m ρ c (Proc.devRef .tc main_v50) = (Chain.aggregate128 (Chain.code3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2))) := by
  have h : W7 m ρ c (Proc.devRef .tc main_v50) = Chain.aggregate128 (W6 m ρ c (Proc.devRef .tc main_v40_1)) (W6 m ρ c (Proc.devRef .tc main_arg1)) (W6 m ρ c (Proc.devRef .tc main_arg2)) := by
    dsimp only [W7, hostOps3]; after_results; rfl
  rw [h, w6_v40_1 R m ρ c, w6_arg1 R m ρ c, w6_arg2 R m ρ c]
set_option maxHeartbeats 1600000 in
theorem w7_v51 : W7 m ρ c (Proc.devRef .tc main_v51) = (Chain.row800 (m ((c : Thread nD τ).loc main_arg8))) := by
  have h : W7 m ρ c (Proc.devRef .tc main_v51) = Chain.row800 (W6 m ρ c (Proc.devRef .tc main_arg8)) := by
    dsimp only [W7, hostOps3]; after_results; rfl
  rw [h, w6_arg8 R m ρ c]

/-! ### Boundary 8 -/

theorem w8_arg1 : W8 m ρ c (Proc.devRef .tc main_arg1) = (m ((c : Thread nD τ).loc main_arg1)) :=
  (W8_of_ne m ρ c main_arg1 (by decide)).trans (w7_arg1 R m ρ c)
theorem w8_arg2 : W8 m ρ c (Proc.devRef .tc main_arg2) = (m ((c : Thread nD τ).loc main_arg2)) :=
  (W8_of_ne m ρ c main_arg2 (by decide)).trans (w7_arg2 R m ρ c)
theorem w8_arg10 : W8 m ρ c (Proc.devRef .tc main_arg10) = (m ((c : Thread nD τ).loc main_arg10)) :=
  (W8_of_ne m ρ c main_arg10 (by decide)).trans (w7_arg10 R m ρ c)
theorem w8_v15 : W8 m ρ c (Proc.devRef .tc main_v15) = (Chain.col (Chain.nrm (m ((c : Thread nD τ).loc main_arg2)))) :=
  (W8_arr m ρ c 2).trans (((dat3 (V7 m ρ) c).arrAt_in 2 rfl _).trans ((A_eq3 (V7 m ρ) c 2).trans (w7_v15 R m ρ c)))
theorem w8_v40_0 : W8 m ρ c (Proc.devRef .tc main_v40_0) = (Chain.encoded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (W8_of_ne m ρ c main_v40_0 (by decide)).trans (w7_v40_0 R m ρ c)
theorem w8_v52 : W8 m ρ c (Proc.devRef .tc main_v52) = (Chain.pre4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W8_arr m ρ c 6).trans ((R.r3 (V7 m ρ) c).trans ?_)
  rw [show V7 m ρ c main_v50 = _ from w7_v50 R m ρ c,
    show V7 m ρ c main_arg7 = _ from w7_arg7 R m ρ c,
    show V7 m ρ c main_v15 = _ from w7_v15 R m ρ c,
    show V7 m ρ c main_v51 = _ from w7_v51 R m ρ c,
    show V7 m ρ c main_arg9 = _ from w7_arg9 R m ρ c,
    show V7 m ρ c main_v7 = _ from w7_v7 R m ρ c]
  rfl

/-! ### Boundary 9 -/

theorem w9_v15 : W9 m ρ c (Proc.devRef .tc main_v15) = (Chain.col (Chain.nrm (m ((c : Thread nD τ).loc main_arg2)))) := by
  dsimp only [W9, hostOps4]; after_results; exact w8_v15 R m ρ c
theorem w9_v40_0 : W9 m ρ c (Proc.devRef .tc main_v40_0) = (Chain.encoded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  dsimp only [W9, hostOps4]; after_results; exact w8_v40_0 R m ρ c
set_option maxHeartbeats 1600000 in
theorem w9_v62 : W9 m ρ c (Proc.devRef .tc main_v62) = (Chain.aggregate256 (Chain.pre4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) (m ((c : Thread nD τ).loc main_arg2))) := by
  have h : W9 m ρ c (Proc.devRef .tc main_v62) = Chain.aggregate256 (W8 m ρ c (Proc.devRef .tc main_v52)) (W8 m ρ c (Proc.devRef .tc main_arg1)) (W8 m ρ c (Proc.devRef .tc main_arg2)) := by
    dsimp only [W9, hostOps4]; after_results; rfl
  rw [h, w8_v52 R m ρ c, w8_arg1 R m ρ c, w8_arg2 R m ρ c]
set_option maxHeartbeats 1600000 in
theorem w9_v63 : W9 m ρ c (Proc.devRef .tc main_v63) = (Chain.row256 (m ((c : Thread nD τ).loc main_arg10))) := by
  have h : W9 m ρ c (Proc.devRef .tc main_v63) = Chain.row256 (W8 m ρ c (Proc.devRef .tc main_arg10)) := by
    dsimp only [W9, hostOps4]; after_results; rfl
  rw [h, w8_arg10 R m ρ c]

/-! ### Boundary 10 -/

theorem w10_v40_0 : W10 m ρ c (Proc.devRef .tc main_v40_0) = (Chain.encoded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (W10_of_ne m ρ c main_v40_0 (by decide)).trans (w9_v40_0 R m ρ c)
theorem w10_v64 : W10 m ρ c (Proc.devRef .tc main_v64) = (Chain.decoded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W10_arr m ρ c 3).trans ((R.r4 (V9 m ρ) c).trans ?_)
  rw [show V9 m ρ c main_v62 = _ from w9_v62 R m ρ c,
    show V9 m ρ c main_v15 = _ from w9_v15 R m ρ c,
    show V9 m ρ c main_v63 = _ from w9_v63 R m ρ c]
  rfl

end Cert.KernelIdeal.Fold

end
-- ==== Proof.LibHostLayout.lean ====
/-
  The host's layout steps as one function of the index, for any extents and element type: a vector broadcast to
  every row of a matrix in two steps ([b] to [1, b] along axis 1, then [1, b] to [a, b]); a one-column matrix
  broadcast across the columns; a vector kept as a one-column matrix; a scalar splat; and, at the ideal values, the
  host's sum over the last axis of a matrix as the initial value plus the sum of the row's entries.
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.LibHostLayout

open Idealize.ShloMosaic Idealize.ShloMosaic.ValueIdx

variable {α : Type}

/-- A vector recast as a one-row matrix by a broadcast along axis 1. -/
theorem vecRow_eq {b : Nat} (x : (⟨1, ![b]⟩ : Shape).Idx → α)
    (h : (⟨1, ![b]⟩ : Shape).BroadcastsInDim ⟨2, ![1, b]⟩ (![1] : Fin 1 → Fin 2)) :
    broadcastInDim ⟨2, ![1, b]⟩ (![1] : Fin 1 → Fin 2) h x = fun i => x (ix1 (i 1)) := by
  funext i
  refine broadcastInDim_apply _ h x i (ix1 (i 1)) fun a => ?_
  match a with
  | ⟨0, _⟩ =>
    show (i 1).val = if b = 1 then 0 else (i 1).val
    split
    · next hb => have := (i 1).isLt; have : (i 1).val < b := this; omega
    · rfl

/-- A one-row matrix broadcast to every row. -/
theorem rowAll_eq {a b : Nat} (x : (⟨2, ![1, b]⟩ : Shape).Idx → α)
    (h : (⟨2, ![1, b]⟩ : Shape).BroadcastsInDim ⟨2, ![a, b]⟩ (![0, 1] : Fin 2 → Fin 2)) :
    broadcastInDim ⟨2, ![a, b]⟩ (![0, 1] : Fin 2 → Fin 2) h x = fun i => x (ix2 (0 : Fin 1) (i 1)) := by
  funext i
  refine broadcastInDim_apply _ h x i (ix2 (0 : Fin 1) (i 1)) fun c => ?_
  match c with
  | ⟨0, _⟩ => show (0 : Nat) = if (1 : Nat) = 1 then 0 else (i 0).val; rfl
  | ⟨1, _⟩ =>
    show (i 1).val = if b = 1 then 0 else (i 1).val
    split
    · next hb => have : (i 1).val < b := (i 1).isLt; omega
    · rfl

/-- A one-column matrix broadcast across the columns. -/
theorem colAll_eq {a b : Nat} (x : (⟨2, ![a, 1]⟩ : Shape).Idx → α)
    (h : (⟨2, ![a, 1]⟩ : Shape).BroadcastsInDim ⟨2, ![a, b]⟩ (![0, 1] : Fin 2 → Fin 2)) :
    broadcastInDim ⟨2, ![a, b]⟩ (![0, 1] : Fin 2 → Fin 2) h x = fun i => x (ix2 (i 0) (0 : Fin 1)) := by
  funext i
  refine broadcastInDim_apply _ h x i (ix2 (i 0) (0 : Fin 1)) fun c => ?_
  match c with
  | ⟨0, _⟩ =>
    show (i 0).val = if a = 1 then 0 else (i 0).val
    split
    · next ha => have : (i 0).val < a := (i 0).isLt; omega
    · rfl
  | ⟨1, _⟩ => show (0 : Nat) = if (1 : Nat) = 1 then 0 else (i 1).val; rfl

/-- A vector kept as a one-column matrix by a broadcast along axis 0. -/
theorem vecCol_eq {a : Nat} (x : (⟨1, ![a]⟩ : Shape).Idx → α)
    (h : (⟨1, ![a]⟩ : Shape).BroadcastsInDim ⟨2, ![a, 1]⟩ (![0] : Fin 1 → Fin 2)) :
    broadcastInDim ⟨2, ![a, 1]⟩ (![0] : Fin 1 → Fin 2) h x = fun i => x (ix1 (i 0)) := by
  funext i
  refine broadcastInDim_apply _ h x i (ix1 (i 0)) fun c => ?_
  match c with
  | ⟨0, _⟩ =>
    show (i 0).val = if a = 1 then 0 else (i 0).val
    split
    · next ha => have : (i 0).val < a := (i 0).isLt; omega
    · rfl

/-- A scalar splat to any shape. -/
theorem splat_eq {t : Shape} (x : (⟨0, ![]⟩ : Shape).Idx → α)
    (h : (⟨0, ![]⟩ : Shape).BroadcastsInDim t (![] : Fin 0 → Fin t.rank)) :
    broadcastInDim t (![] : Fin 0 → Fin t.rank) h x = fun _ => x ix0 := by
  funext i
  exact broadcastInDim_apply _ h x i ix0 fun a => a.elim0

end Cert.LibHostLayout

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibColumnCasts.lean ====
/-
  Three shape casts around a unit axis, each read at an index written by coordinates, for any extents and any
  element type. A shape cast keeps the row-major position; a unit axis contributes nothing to it.

    cast_dropSecond   [a, 1, b, c] → [a, b, c]   reads (p, q, r)  at (p, 0, q, r)
    cast_column       [a]          → [a, 1]      reads (p, u)     at p            (a sum kept as a column)
    cast_uncolumn     [a, 1]       → [a]         reads p          at (p, 0)       (a column read as a vector)
-/
import Idealize.ShloMosaic.Lib.Pipeline.Value
import Idealize.ShloMosaic.Lib.ValueIdx

namespace Cert.LibColumnCasts

open Idealize.ShloMosaic Idealize.ShloMosaic.ValueIdx

variable {α : Type}

/-- A cast that drops a unit axis in second place, `[a,1,b,c]` to `[a,b,c]`, reads `(p,q,r)` at `(p,0,q,r)`. -/
theorem cast_dropSecond {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h _ _ (by
    rw [Shape.rowMajor_val_four, Shape.rowMajor_val_three]
    show ((p.val * 1 + 0) * b + q.val) * c + r.val = (p.val * b + q.val) * c + r.val
    rw [Nat.mul_one, Nat.add_zero])

/-- A vector written as one column, `[a]` to `[a,1]`, reads `(p,u)` at `p`, whatever the unit coordinate `u`. -/
theorem cast_column {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column array read as a vector, `[a,1]` to `[a]`, reads `p` at `(p,0)`. -/
theorem cast_uncolumn {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Cert.LibColumnCasts
-- ==== Proof.HostBridge.lean ====
/-
  The reference's whole-array host expressions, read at the ideal values, are the stage functions of Spec.lean.

  The reference lays a per-node vector s : [a] out across a matrix by two broadcasts ([a] to [a, 1] along axis 0, then
  [a, 1] to [a, b]), and a bias v : [b] by two broadcasts ([b] to [1, b] along axis 1, then [1, b] to [a, b]); the stage
  functions take the same data as a one-column matrix and a one-row matrix obtained by a reshape.  Both read s at the
  row coordinate and v at the column coordinate, so every host expression below equals, index by index, the stage
  function of the reshaped operands:

    scale_eq         X · col s                                          = rowScale X (ccol s)
    hidden_eq        max ((A·W)·col nd + row b, 0)                      = hidden A W (ccol nd) (crow b)
    fused_eq         (max ((A·W1)·col nd + row b, 0) · W2) · col ns     = fusedPair A W1 (ccol nd) (crow b) W2 (ccol ns)
    affine_eq        A · col nd + row bias                              = affine A (ccol nd) (crow bias)
    squash_eq        1 / (1 + exp (−(A · col nd + row bias)))           = squash A (ccol nd) (crow bias)
    affineScale_eq   (A · col nd + row bias) · col ns                   = rowScale (affine A (ccol nd) (crow bias)) (ccol ns)

  Every extent is a variable and every side condition of a layout step or of a product is a hypothesis, so the
  equations apply to any program that spells these operations.
-/
import Idealize.ShloMosaic.Lib.IdealHost
import Idealize.ShloMosaic.Lib.ValueLayout
import proofs.«111293_j90314572300354_2_alg».proof.Proof.Spec
import proofs.«111293_j90314572300354_2_alg».proof.Proof.LibHostLayout
import proofs.«111293_j90314572300354_2_alg».proof.Proof.LibMatmul
import proofs.«111293_j90314572300354_2_alg».proof.Proof.LibColumnCasts

noncomputable section

open scoped BigOperators

namespace Cert.HostBridge

open Idealize.ShloMosaic Idealize.ShloMosaic.ValueIdx

/-! ## The layout steps read at an index -/

/-- A vector broadcast to a column and then across the columns reads the vector at the row coordinate. -/
theorem col_apply {a b : Nat} (s : FVec Ideal ⟨1, ![a]⟩ .f32)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (i : (⟨2, ![a, b]⟩ : Shape).Idx) :
    broadcastInDim ⟨2, ![a, b]⟩ ![0, 1] h2 (broadcastInDim ⟨2, ![a, 1]⟩ ![0] h1 s) i = s (ix1 (i 0)) := by
  rw [Cert.LibHostLayout.colAll_eq, Cert.LibHostLayout.vecCol_eq]
  rfl

/-- A vector broadcast to a row and then to every row reads the vector at the column coordinate. -/
theorem row_apply {a b : Nat} (v : FVec Ideal ⟨1, ![b]⟩ .f32)
    (h3 : (⟨1, ![b]⟩ : Shape).BroadcastsInDim ⟨2, ![1, b]⟩ (![1] : Fin 1 → Fin 2))
    (h4 : (⟨2, ![1, b]⟩ : Shape).BroadcastsInDim ⟨2, ![a, b]⟩ (![0, 1] : Fin 2 → Fin 2))
    (i : (⟨2, ![a, b]⟩ : Shape).Idx) :
    broadcastInDim ⟨2, ![a, b]⟩ ![0, 1] h4 (broadcastInDim ⟨2, ![1, b]⟩ ![1] h3 v) i = v (ix1 (i 1)) := by
  rw [Cert.LibHostLayout.rowAll_eq, Cert.LibHostLayout.vecRow_eq]
  rfl

/-- A scalar constant splat to a matrix reads the constant's value everywhere. -/
theorem splat_apply {a b : Nat} (w : BitVec 32)
    (h0 : (⟨0, ![]⟩ : Shape).BroadcastsInDim ⟨2, ![a, b]⟩ (![] : Fin 0 → Fin 2))
    (i : (⟨2, ![a, b]⟩ : Shape).Idx) :
    broadcastInDim ⟨2, ![a, b]⟩ ![] h0 (constant (F := Ideal) ⟨0, ![]⟩ .f32 w) i = Ideal.ofBits .f32 w := by
  rw [Cert.LibHostLayout.splat_eq]
  rfl

/-- The reshaped column read at the row coordinate of a matrix index. -/
theorem ccol_apply {a b : Nat} (s : FVec Ideal ⟨1, ![a]⟩ .f32) (hc : (⟨1, ![a]⟩ : Shape).ShapeCasts ⟨2, ![a, 1]⟩)
    (i : (⟨2, ![a, b]⟩ : Shape).Idx) :
    shapeCast ⟨2, ![a, 1]⟩ s hc (ix2 (Cert.Spec.rowOf i) (0 : Fin 1)) = s (ix1 (i 0)) :=
  Cert.LibColumnCasts.cast_column s hc (Cert.Spec.rowOf i) 0

/-- The reshaped row read at the column coordinate of a matrix index. -/
theorem crow_apply {a b : Nat} (v : FVec Ideal ⟨1, ![b]⟩ .f32) (hr : (⟨1, ![b]⟩ : Shape).ShapeCasts ⟨2, ![1, b]⟩)
    (i : (⟨2, ![a, b]⟩ : Shape).Idx) :
    shapeCast ⟨2, ![1, b]⟩ v hr (ix2 (0 : Fin 1) (Cert.Spec.colOf i)) = v (ix1 (i 1)) :=
  shapeCast_a_1a_apply v hr 0 (Cert.Spec.colOf i)

/-! ## The stages -/

/-- Features scaled per node. -/
theorem scale_eq {a b : Nat} (X : FVec Ideal ⟨2, ![a, b]⟩ .f32) (s : FVec Ideal ⟨1, ![a]⟩ .f32)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (hc : (⟨1, ![a]⟩ : Shape).ShapeCasts ⟨2, ![a, 1]⟩) :
    mulf X (broadcastInDim ⟨2, ![a, b]⟩ ![0, 1] h2 (broadcastInDim ⟨2, ![a, 1]⟩ ![0] h1 s))
      = Cert.Spec.rowScale X (shapeCast ⟨2, ![a, 1]⟩ s hc) := by
  funext i
  rw [mulf_apply, col_apply]
  unfold Cert.Spec.rowScale
  rw [ccol_apply]

/-- The normalised, biased aggregate. -/
theorem affine_eq {a b : Nat} (A : FVec Ideal ⟨2, ![a, b]⟩ .f32) (nd : FVec Ideal ⟨1, ![a]⟩ .f32)
    (bias : FVec Ideal ⟨1, ![b]⟩ .f32)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (h3 : (⟨1, ![b]⟩ : Shape).BroadcastsInDim ⟨2, ![1, b]⟩ (![1] : Fin 1 → Fin 2))
    (h4 : (⟨2, ![1, b]⟩ : Shape).BroadcastsInDim ⟨2, ![a, b]⟩ (![0, 1] : Fin 2 → Fin 2))
    (hc : (⟨1, ![a]⟩ : Shape).ShapeCasts ⟨2, ![a, 1]⟩) (hr : (⟨1, ![b]⟩ : Shape).ShapeCasts ⟨2, ![1, b]⟩) :
    addf (mulf A (broadcastInDim ⟨2, ![a, b]⟩ ![0, 1] h2 (broadcastInDim ⟨2, ![a, 1]⟩ ![0] h1 nd)))
        (broadcastInDim ⟨2, ![a, b]⟩ ![0, 1] h4 (broadcastInDim ⟨2, ![1, b]⟩ ![1] h3 bias))
      = Cert.Spec.affine A (shapeCast ⟨2, ![a, 1]⟩ nd hc) (shapeCast ⟨2, ![1, b]⟩ bias hr) := by
  funext i
  rw [addf_apply, mulf_apply, col_apply, row_apply]
  unfold Cert.Spec.affine
  rw [ccol_apply, crow_apply]

/-- Scaling the normalised, biased aggregate for the next aggregation. -/
theorem affineScale_eq {a b : Nat} (A : FVec Ideal ⟨2, ![a, b]⟩ .f32) (nd ns : FVec Ideal ⟨1, ![a]⟩ .f32)
    (bias : FVec Ideal ⟨1, ![b]⟩ .f32)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (h3 : (⟨1, ![b]⟩ : Shape).BroadcastsInDim ⟨2, ![1, b]⟩ (![1] : Fin 1 → Fin 2))
    (h4 : (⟨2, ![1, b]⟩ : Shape).BroadcastsInDim ⟨2, ![a, b]⟩ (![0, 1] : Fin 2 → Fin 2))
    (h1' : (⟨1, ![a]⟩ : Shape).BroadcastsInDim ⟨2, ![a, 1]⟩ (![0] : Fin 1 → Fin 2))
    (h2' : (⟨2, ![a, 1]⟩ : Shape).BroadcastsInDim ⟨2, ![a, b]⟩ (![0, 1] : Fin 2 → Fin 2))
    (hc : (⟨1, ![a]⟩ : Shape).ShapeCasts ⟨2, ![a, 1]⟩) (hr : (⟨1, ![b]⟩ : Shape).ShapeCasts ⟨2, ![1, b]⟩)
    (hc' : (⟨1, ![a]⟩ : Shape).ShapeCasts ⟨2, ![a, 1]⟩) :
    mulf (addf (mulf A (broadcastInDim ⟨2, ![a, b]⟩ ![0, 1] h2 (broadcastInDim ⟨2, ![a, 1]⟩ ![0] h1 nd)))
          (broadcastInDim ⟨2, ![a, b]⟩ ![0, 1] h4 (broadcastInDim ⟨2, ![1, b]⟩ ![1] h3 bias)))
        (broadcastInDim ⟨2, ![a, b]⟩ ![0, 1] h2' (broadcastInDim ⟨2, ![a, 1]⟩ ![0] h1' ns))
      = Cert.Spec.rowScale (Cert.Spec.affine A (shapeCast ⟨2, ![a, 1]⟩ nd hc) (shapeCast ⟨2, ![1, b]⟩ bias hr))
          (shapeCast ⟨2, ![a, 1]⟩ ns hc') := by
  rw [affine_eq A nd bias h1 h2 h3 h4 hc hr]
  exact scale_eq _ ns h1' h2' hc'

/-- The host's quotient, exponential and negation at an index, at the ideal values. -/
theorem hostDiv_apply {t : Shape} (x y : FVec Ideal t .f32) (i : t.Idx) : Host.divf x y i = Ideal.div (x i) (y i) := rfl
theorem hostExp_apply {t : Shape} (x : FVec Ideal t .f32) (i : t.Idx) : Host.exp x i = Ideal.exp (x i) := rfl
theorem hostNeg_apply {t : Shape} (x : FVec Ideal t .f32) (i : t.Idx) : Host.negf x i = -(x i) := rfl

/-- The logistic function of the normalised, biased aggregate, as the host spells it: 1 / (1 + exp (−x)). -/
theorem squash_eq {a b : Nat} (A : FVec Ideal ⟨2, ![a, b]⟩ .f32) (nd : FVec Ideal ⟨1, ![a]⟩ .f32)
    (bias : FVec Ideal ⟨1, ![b]⟩ .f32)
    (h0 h0' : (⟨0, ![]⟩ : Shape).BroadcastsInDim ⟨2, ![a, b]⟩ (![] : Fin 0 → Fin 2))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (h3 : (⟨1, ![b]⟩ : Shape).BroadcastsInDim ⟨2, ![1, b]⟩ (![1] : Fin 1 → Fin 2))
    (h4 : (⟨2, ![1, b]⟩ : Shape).BroadcastsInDim ⟨2, ![a, b]⟩ (![0, 1] : Fin 2 → Fin 2))
    (hc : (⟨1, ![a]⟩ : Shape).ShapeCasts ⟨2, ![a, 1]⟩) (hr : (⟨1, ![b]⟩ : Shape).ShapeCasts ⟨2, ![1, b]⟩) :
    Host.divf (broadcastInDim ⟨2, ![a, b]⟩ ![] h0 (constant (F := Ideal) ⟨0, ![]⟩ .f32 0x3F800000#32))
        (addf (broadcastInDim ⟨2, ![a, b]⟩ ![] h0' (constant (F := Ideal) ⟨0, ![]⟩ .f32 0x3F800000#32))
          (Host.exp (Host.negf
            (addf (mulf A (broadcastInDim ⟨2, ![a, b]⟩ ![0, 1] h2 (broadcastInDim ⟨2, ![a, 1]⟩ ![0] h1 nd)))
              (broadcastInDim ⟨2, ![a, b]⟩ ![0, 1] h4 (broadcastInDim ⟨2, ![1, b]⟩ ![1] h3 bias))))))
      = Cert.Spec.squash A (shapeCast ⟨2, ![a, 1]⟩ nd hc) (shapeCast ⟨2, ![1, b]⟩ bias hr) := by
  rw [affine_eq A nd bias h1 h2 h3 h4 hc hr]
  funext i
  rw [hostDiv_apply, addf_apply, hostExp_apply, hostNeg_apply, splat_apply, Ideal.ofBits_one_f32]
  rfl

/-- The host's product with plain dimension numbers is the matrix product. -/
theorem hostDot_eq {A K B : Nat} (d : DotDims ⟨2, ![A, K]⟩ ⟨2, ![K, B]⟩ ⟨2, ![A, B]⟩) (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (x : FVec Ideal ⟨2, ![A, K]⟩ .f32) (w : FVec Ideal ⟨2, ![K, B]⟩ .f32) :
    Host.dotGeneral d prec x w = Cert.LibMatmul.MM x w :=
  Cert.LibMatmul.dotGeneral_eq d hlb hln hlc hrb hrn hrc prec .single x w

/-- Project, normalise per node, add the bias, clamp below at zero. -/
theorem hidden_eq {a k h : Nat} (A : FVec Ideal ⟨2, ![a, k]⟩ .f32) (W : FVec Ideal ⟨2, ![k, h]⟩ .f32)
    (nd : FVec Ideal ⟨1, ![a]⟩ .f32) (b : FVec Ideal ⟨1, ![h]⟩ .f32)
    (d : DotDims ⟨2, ![a, k]⟩ ⟨2, ![k, h]⟩ ⟨2, ![a, h]⟩) (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (h0 : (⟨0, ![]⟩ : Shape).BroadcastsInDim ⟨2, ![a, h]⟩ (![] : Fin 0 → Fin 2))
    (h1 : (⟨1, ![a]⟩ : Shape).BroadcastsInDim ⟨2, ![a, 1]⟩ (![0] : Fin 1 → Fin 2))
    (h2 : (⟨2, ![a, 1]⟩ : Shape).BroadcastsInDim ⟨2, ![a, h]⟩ (![0, 1] : Fin 2 → Fin 2))
    (h3 : (⟨1, ![h]⟩ : Shape).BroadcastsInDim ⟨2, ![1, h]⟩ (![1] : Fin 1 → Fin 2))
    (h4 : (⟨2, ![1, h]⟩ : Shape).BroadcastsInDim ⟨2, ![a, h]⟩ (![0, 1] : Fin 2 → Fin 2))
    (hc : (⟨1, ![a]⟩ : Shape).ShapeCasts ⟨2, ![a, 1]⟩) (hr : (⟨1, ![h]⟩ : Shape).ShapeCasts ⟨2, ![1, h]⟩) :
    maximumf
        (addf (mulf (Host.dotGeneral d prec A W)
            (broadcastInDim ⟨2, ![a, h]⟩ ![0, 1] h2 (broadcastInDim ⟨2, ![a, 1]⟩ ![0] h1 nd)))
          (broadcastInDim ⟨2, ![a, h]⟩ ![0, 1] h4 (broadcastInDim ⟨2, ![1, h]⟩ ![1] h3 b)))
        (broadcastInDim ⟨2, ![a, h]⟩ ![] h0 (constant (F := Ideal) ⟨0, ![]⟩ .f32 0x00000000#32))
      = Cert.Spec.hidden A W (shapeCast ⟨2, ![a, 1]⟩ nd hc) (shapeCast ⟨2, ![1, h]⟩ b hr) := by
  rw [hostDot_eq d prec hlb hln hlc hrb hrn hrc A W]
  funext i
  rw [maximumf_apply, addf_apply, mulf_apply, col_apply, row_apply, splat_apply]
  unfold Cert.Spec.hidden
  rw [ccol_apply, crow_apply]
  rfl

/-- The hidden layer projected again and scaled per node for the next aggregation. -/
theorem fused_eq {a k h o : Nat} (A : FVec Ideal ⟨2, ![a, k]⟩ .f32) (W1 : FVec Ideal ⟨2, ![k, h]⟩ .f32)
    (nd ns : FVec Ideal ⟨1, ![a]⟩ .f32) (b : FVec Ideal ⟨1, ![h]⟩ .f32) (W2 : FVec Ideal ⟨2, ![h, o]⟩ .f32)
    (d1 : DotDims ⟨2, ![a, k]⟩ ⟨2, ![k, h]⟩ ⟨2, ![a, h]⟩) (prec1 : Option ContractPrecision)
    (hlb1 : d1.lhsBatch = []) (hln1 : d1.lhsNonContracting = [0]) (hlc1 : d1.lhsContracting = [1])
    (hrb1 : d1.rhsBatch = []) (hrn1 : d1.rhsNonContracting = [1]) (hrc1 : d1.rhsContracting = [0])
    (d2 : DotDims ⟨2, ![a, h]⟩ ⟨2, ![h, o]⟩ ⟨2, ![a, o]⟩) (prec2 : Option ContractPrecision)
    (hlb2 : d2.lhsBatch = []) (hln2 : d2.lhsNonContracting = [0]) (hlc2 : d2.lhsContracting = [1])
    (hrb2 : d2.rhsBatch = []) (hrn2 : d2.rhsNonContracting = [1]) (hrc2 : d2.rhsContracting = [0])
    (h0 : (⟨0, ![]⟩ : Shape).BroadcastsInDim ⟨2, ![a, h]⟩ (![] : Fin 0 → Fin 2))
    (h1 : (⟨1, ![a]⟩ : Shape).BroadcastsInDim ⟨2, ![a, 1]⟩ (![0] : Fin 1 → Fin 2))
    (h2 : (⟨2, ![a, 1]⟩ : Shape).BroadcastsInDim ⟨2, ![a, h]⟩ (![0, 1] : Fin 2 → Fin 2))
    (h3 : (⟨1, ![h]⟩ : Shape).BroadcastsInDim ⟨2, ![1, h]⟩ (![1] : Fin 1 → Fin 2))
    (h4 : (⟨2, ![1, h]⟩ : Shape).BroadcastsInDim ⟨2, ![a, h]⟩ (![0, 1] : Fin 2 → Fin 2))
    (h1' : (⟨1, ![a]⟩ : Shape).BroadcastsInDim ⟨2, ![a, 1]⟩ (![0] : Fin 1 → Fin 2))
    (h2' : (⟨2, ![a, 1]⟩ : Shape).BroadcastsInDim ⟨2, ![a, o]⟩ (![0, 1] : Fin 2 → Fin 2))
    (hc : (⟨1, ![a]⟩ : Shape).ShapeCasts ⟨2, ![a, 1]⟩) (hr : (⟨1, ![h]⟩ : Shape).ShapeCasts ⟨2, ![1, h]⟩)
    (hc' : (⟨1, ![a]⟩ : Shape).ShapeCasts ⟨2, ![a, 1]⟩) :
    mulf
        (Host.dotGeneral d2 prec2
          (maximumf
            (addf (mulf (Host.dotGeneral d1 prec1 A W1)
                (broadcastInDim ⟨2, ![a, h]⟩ ![0, 1] h2 (broadcastInDim ⟨2, ![a, 1]⟩ ![0] h1 nd)))
              (broadcastInDim ⟨2, ![a, h]⟩ ![0, 1] h4 (broadcastInDim ⟨2, ![1, h]⟩ ![1] h3 b)))
            (broadcastInDim ⟨2, ![a, h]⟩ ![] h0 (constant (F := Ideal) ⟨0, ![]⟩ .f32 0x00000000#32)))
          W2)
        (broadcastInDim ⟨2, ![a, o]⟩ ![0, 1] h2' (broadcastInDim ⟨2, ![a, 1]⟩ ![0] h1' ns))
      = Cert.Spec.fusedPair A W1 (shapeCast ⟨2, ![a, 1]⟩ nd hc) (shapeCast ⟨2, ![1, h]⟩ b hr) W2
          (shapeCast ⟨2, ![a, 1]⟩ ns hc') := by
  rw [hidden_eq A W1 nd b d1 prec1 hlb1 hln1 hlc1 hrb1 hrn1 hrc1 h0 h1 h2 h3 h4 hc hr,
    hostDot_eq d2 prec2 hlb2 hln2 hlc2 hrb2 hrn2 hrc2 _ W2]
  funext i
  rw [mulf_apply, col_apply]
  unfold Cert.Spec.fusedPair
  rw [ccol_apply]
  rfl

end Cert.HostBridge

end
-- ==== Proof.RefSide.lean ====
/-
  The reference's two results are the same functions of the argument arrays as the kernel's.  Its printed term is
  read from the outside in: the logistic function spelt as 1 / (1 + exp (-h)) of the normalised, biased aggregate;
  inside the aggregate the two matrix products around the relu, scaled for the next aggregation; inside that the
  features scaled by the source-side normaliser.  Each of those whole-array expressions, with the normalisers and
  biases laid out by broadcasts, is the row-tiled stage of Spec with the same vectors laid out by a reshape; the
  gather-and-sum steps between them and the degree normalisers are the shared host operations, word for word.
-/
import proofs.«111293_j90314572300354_2_alg».proof.Proof.Gen.ReferenceIdeal.Run
import proofs.«111293_j90314572300354_2_alg».proof.Proof.HostBridge
import proofs.«111293_j90314572300354_2_alg».proof.Proof.Chain

noncomputable section

namespace Cert.ReferenceIdeal.RefValue

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

set_option maxRecDepth 8192 in
/-- The reference's first result is the encoder's value. -/
theorem encoded_eq (hc : S20000.ShapeCasts S20000x1) (hr128 : S128.ShapeCasts S1x128) (hr800 : S800.ShapeCasts S1x800) :
    Cert.ReferenceIdeal.Value.res_main_v74 (F := Ideal) m c
      = Cert.KernelIdeal.Chain.encoded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Value.res_main_v74
  rw [Cert.HostBridge.squash_eq _ _ _ _ _ _ _ _ _ hc hr128]
  rw [Cert.HostBridge.fused_eq _ _ _ _ _ _ _ none rfl rfl rfl rfl rfl rfl _ none rfl rfl rfl rfl rfl rfl _ _ _ _ _ _ _ hc hr800 hc]
  rw [Cert.HostBridge.scale_eq _ _ _ _ hc]
  rfl

set_option maxRecDepth 8192 in
/-- The reference's second result is the decoder's value. -/
theorem decoded_eq (hc : S20000.ShapeCasts S20000x1) (hr128 : S128.ShapeCasts S1x128) (hr800 : S800.ShapeCasts S1x800)
    (hr256 : S256.ShapeCasts S1x256) :
    Cert.ReferenceIdeal.Value.res_main_v149 (F := Ideal) m c
      = Cert.KernelIdeal.Chain.decoded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v149
  rw [Cert.HostBridge.squash_eq _ _ _ _ _ _ _ _ _ hc hr256]
  rw [Cert.HostBridge.fused_eq (k := 128) _ _ _ _ _ _ _ none rfl rfl rfl rfl rfl rfl _ none rfl rfl rfl rfl rfl rfl _ _ _ _ _ _ _ hc hr800 hc]
  rw [Cert.HostBridge.affineScale_eq _ _ _ _ _ _ _ _ _ _ hc hr128 hc]
  rw [Cert.HostBridge.fused_eq (k := 256) _ _ _ _ _ _ _ none rfl rfl rfl rfl rfl rfl _ none rfl rfl rfl rfl rfl rfl _ _ _ _ _ _ _ hc hr800 hc]
  rw [Cert.HostBridge.scale_eq _ _ _ _ hc]
  rfl

end Cert.ReferenceIdeal.RefValue

end
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.RegA0.lean ====
/-
  Region 0 (row scaling): the array the region leaves is the row scaling of its two input arrays, for any
  region-entry contents.  First the body's payload on a block is the row scaling of the block; then what a grid
  point writes back is the point's block of the row scaling of the arrays (row t*2000 + j of the arrays is row j of
  the point's blocks); the ten blocks cover the array.  Also here: the row-locality of the stage functions, used by
  the other regions.
-/
import proofs.«111293_j90314572300354_2_alg».proof.Proof.Gen.KernelIdeal.Frame
import proofs.«111293_j90314572300354_2_alg».proof.Proof.Spec
import proofs.«111293_j90314572300354_2_alg».proof.Proof.LibRowOps
import Idealize.ShloMosaic.Lib.Pipeline.Value
import Idealize.ShloMosaic.Lib.ValueLayout

set_option maxRecDepth 16384

noncomputable section

namespace Cert.KernelIdeal.RegA

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b)) (c : Dev nD)

/-- The zero offset of a whole-buffer rectangle. -/
theorem hz : (![0, 0] : Fin 2 → Nat) = fun _ => 0 := funext fun a => by fin_cases a <;> rfl

/-- The body's payload on a block is the row scaling of the block. -/
theorem pay0 (x0 : Vec Ideal S2000x256 .f32) (x1 : Vec Ideal S2000x1 .f32) : k0_pay1 x0 x1 = Cert.Spec.rowScale x0 x1 := by
  funext i
  obtain ⟨p, q, rfl⟩ : ∃ (p : Fin 2000) (q : Fin 256), i = ix2 p q := ⟨i 0, i 1, eq_ix2 i⟩
  unfold k0_pay1 Cert.Spec.rowScale
  show x0 (ix2 p q) * broadcastTo S2000x256 (shapeCast S2000x1 x1 shapeCasts_S2000x1_S2000x1) broadcasts_S2000x1_S2000x256 (ix2 p q) = _
  rw [shapeCast_self]
  exact congrArg (x0 (ix2 p q) * ·) (Cert.LibRowOps.col_bcast_apply x1 broadcasts_S2000x1_S2000x256 p q)

/-- Row scaling is row-local: equal entries and equal scales of the two rows give equal values. -/
theorem rowScale_congr {a a' b : Nat} (X : Cert.Spec.Mat a b) (s : Cert.Spec.Mat a 1) (X' : Cert.Spec.Mat a' b) (s' : Cert.Spec.Mat a' 1)
    (i : (⟨2, ![a, b]⟩ : Shape).Idx) (j : (⟨2, ![a', b]⟩ : Shape).Idx)
    (hX : X' j = X i) (hs : s' (ix2 (Cert.Spec.rowOf j) (0 : Fin 1)) = s (ix2 (Cert.Spec.rowOf i) (0 : Fin 1))) :
    Cert.Spec.rowScale X' s' j = Cert.Spec.rowScale X s i := by
  unfold Cert.Spec.rowScale
  rw [hX, hs]

/-- The normalised, biased aggregate is row-local in its first two arguments and column-local in the bias. -/
theorem affine_congr {a a' b : Nat} (A : Cert.Spec.Mat a b) (nd : Cert.Spec.Mat a 1) (bias : Cert.Spec.Mat 1 b)
    (A' : Cert.Spec.Mat a' b) (nd' : Cert.Spec.Mat a' 1) (bias' : Cert.Spec.Mat 1 b)
    (i : (⟨2, ![a, b]⟩ : Shape).Idx) (j : (⟨2, ![a', b]⟩ : Shape).Idx)
    (hA : A' j = A i) (hn : nd' (ix2 (Cert.Spec.rowOf j) (0 : Fin 1)) = nd (ix2 (Cert.Spec.rowOf i) (0 : Fin 1)))
    (hb : bias' (ix2 (0 : Fin 1) (Cert.Spec.colOf j)) = bias (ix2 (0 : Fin 1) (Cert.Spec.colOf i))) :
    Cert.Spec.affine A' nd' bias' j = Cert.Spec.affine A nd bias i := by
  unfold Cert.Spec.affine
  rw [hA, hn, hb]

/-- So is its logistic. -/
theorem squash_congr {a a' b : Nat} (A : Cert.Spec.Mat a b) (nd : Cert.Spec.Mat a 1) (bias : Cert.Spec.Mat 1 b)
    (A' : Cert.Spec.Mat a' b) (nd' : Cert.Spec.Mat a' 1) (bias' : Cert.Spec.Mat 1 b)
    (i : (⟨2, ![a, b]⟩ : Shape).Idx) (j : (⟨2, ![a', b]⟩ : Shape).Idx)
    (hA : A' j = A i) (hn : nd' (ix2 (Cert.Spec.rowOf j) (0 : Fin 1)) = nd (ix2 (Cert.Spec.rowOf i) (0 : Fin 1)))
    (hb : bias' (ix2 (0 : Fin 1) (Cert.Spec.colOf j)) = bias (ix2 (0 : Fin 1) (Cert.Spec.colOf i))) :
    Cert.Spec.squash A' nd' bias' j = Cert.Spec.squash A nd bias i := by
  unfold Cert.Spec.squash
  rw [affine_congr A nd bias A' nd' bias' i j hA hn hb]

/-- The index maps, decided over the ten grid points: every window moves down the rows with the point. -/
theorem idx_facts0 : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the row scaling of the input arrays. -/
theorem flushed0_eq (t : Fin cfg0.N) :
    (dat0 (F := Ideal) V c).flushed 2 t = ((cfg0.win 2).blk t).view.read (Elt Ideal) (Cert.Spec.rowScale (V c main_arg0) (V c main_v7)) := by
  show (cfg0.win 2).cut (grid0.coords t) ((dat0 V c).after 2 t) = _
  rw [after0_2]
  unfold out0_2
  rw [View.canon_unit_zero hz]
  simp only [View.ld_unit_zero (S := S2000x256) hz, View.ld_unit_zero (S := S2000x1) hz]
  rw [pay0]
  obtain ⟨e0, e1, e2, e3, e4, e5⟩ := idx_facts0 t
  funext j
  show Cert.Spec.rowScale (iblk0 V c 0 t) (iblk0 V c 1 t) j = Cert.Spec.rowScale (V c main_arg0) (V c main_v7) (((cfg0.win 2).blk t).view.emb j)
  have hj0 : (j 0).val < 2000 := (j 0).isLt
  have hj1 : (j 1).val < 256 := (j 1).isLt
  refine rowScale_congr (V c main_arg0) (V c main_v7) (iblk0 V c 0 t) (iblk0 V c 1 t) (((cfg0.win 2).blk t).view.emb j) j ?_ ?_
  · show V c main_arg0 (((cfg0.win 0).blk t).view.emb j) = V c main_arg0 (((cfg0.win 2).blk t).view.emb j)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * (j 1).val = win0_2.index t (1 : Fin 2) * 256 + 1 * (j 1).val; omega
  · show V c main_v7 (((cfg0.win 1).blk t).view.emb (ix2 (Cert.Spec.rowOf j) (0 : Fin 1))) = V c main_v7 (ix2 (Cert.Spec.rowOf (((cfg0.win 2).blk t).view.emb j)) (0 : Fin 1))
    refine congrArg (V c main_v7) (funext fun a => Fin.ext ?_)
    match a with
    | ⟨0, _⟩ => show win0_1.index t (0 : Fin 2) * 2000 + 1 * (j 0).val = win0_2.index t (0 : Fin 2) * 2000 + 1 * (j 0).val; omega
    | ⟨1, _⟩ => show win0_1.index t (1 : Fin 2) * 1 + 1 * 0 = 0; omega

/-- An index of the array is in point `t`'s block iff each coordinate is in the block's range on its axis. -/
theorem mem_blk0 (t : Fin cfg0.N) (i : S20000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v16).slice (win0_2.rect t)).set ↔ _
  rw [View.set_slice_whole, Rect.mem_set_unit]
  exact Iff.rfl

/-- Row r of the array lies in the block of point r / 2000. -/
theorem cover0 (i : S20000x256.Idx) : ∃ t : Fin cfg0.N, (cfg0.win 2).flush t = true ∧ i ∈ ((cfg0.win 2).blk t).view.set := by
  have hi0 : (i 0).val < 20000 := (i 0).isLt
  have hi1 : (i 1).val < 256 := (i 1).isLt
  have hN : cfg0.N = 10 := N_0
  obtain ⟨t, ht⟩ : ∃ t : Fin cfg0.N, t.val = (i 0).val / 2000 := ⟨⟨(i 0).val / 2000, by rw [hN]; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- Region 0 leaves, in its output array, the input rows scaled per node. -/
theorem region0_array : (dat0 (F := Ideal) V c).arrAt 2 cfg0.N = Cert.Spec.rowScale (V c main_arg0) (V c main_v7) :=
  (dat0 V c).arrAt_eq_of_cover 2 (Cert.Spec.rowScale (V c main_arg0) (V c main_v7)) (fun t _ => flushed0_eq V c t) cover0

end Cert.KernelIdeal.RegA

end
-- ==== Proof.RegA2.lean ====
/-
  Region 2 (the encoder's epilogue): its two output arrays are the logistic of the normalised, biased aggregate,
  and that aggregate scaled per node for the next aggregation, for any region-entry contents.  The payloads on
  blocks are the stage functions of the blocks; a grid point writes back its block of the stage function of the
  arrays (the row-tiled windows read row t*2000 + j, the bias window reads the whole one-row array); the ten
  blocks cover each array.
-/
import proofs.«111293_j90314572300354_2_alg».proof.Proof.Gen.KernelIdeal.Frame
import proofs.«111293_j90314572300354_2_alg».proof.Proof.Spec
import proofs.«111293_j90314572300354_2_alg».proof.Proof.LibRowOps
import proofs.«111293_j90314572300354_2_alg».proof.Proof.RegA0
import Idealize.ShloMosaic.Lib.Pipeline.Value
import Idealize.ShloMosaic.Lib.ValueLayout

set_option maxRecDepth 16384

noncomputable section

namespace Cert.KernelIdeal.RegA

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b)) (c : Dev nD)

/-- The shared payload on a block: the aggregate scaled per node plus the bias row. -/
theorem pay2_aff (x0 : Vec Ideal S2000x128 .f32) (x1 : Vec Ideal S2000x1 .f32) (x2 : Vec Ideal S1x128 .f32) :
    k2_pay1 x0 x1 x2 = Cert.Spec.affine x0 x1 x2 := by
  funext i
  obtain ⟨p, q, rfl⟩ : ∃ (p : Fin 2000) (q : Fin 128), i = ix2 p q := ⟨i 0, i 1, eq_ix2 i⟩
  unfold k2_pay1 Cert.Spec.affine
  show shapeCast S2000x128 x0 shapeCasts_S2000x128_S2000x128 (ix2 p q)
        * broadcastTo S2000x128 (shapeCast S2000x1 x1 shapeCasts_S2000x1_S2000x1) broadcasts_S2000x1_S2000x128 (ix2 p q)
      + broadcastTo S2000x128 (shapeCast S1x128 x2 shapeCasts_S1x128_S1x128) broadcasts_S1x128_S2000x128 (ix2 p q) = _
  rw [shapeCast_self, shapeCast_self, shapeCast_self, Cert.LibRowOps.col_bcast_apply x1 _ p q, broadcastTo_1b_ab_apply x2 _ p q]

/-- The first store's payload is the logistic of it. -/
theorem pay2_enc (x0 : Vec Ideal S2000x128 .f32) (x1 : Vec Ideal S2000x1 .f32) (x2 : Vec Ideal S1x128 .f32) :
    k2_pay2 x0 x1 x2 = Cert.Spec.squash x0 x1 x2 := by
  funext i
  unfold k2_pay2 Cert.Spec.squash
  show Ideal.logistic (k2_pay1 x0 x1 x2 i) = _
  rw [pay2_aff]

/-- The second store's payload is it scaled per node. -/
theorem pay2_next (x0 : Vec Ideal S2000x128 .f32) (x1 : Vec Ideal S2000x1 .f32) (x2 : Vec Ideal S1x128 .f32) (x3 : Vec Ideal S2000x1 .f32) :
    k2_pay3 x0 x1 x2 x3 = Cert.Spec.rowScale (Cert.Spec.affine x0 x1 x2) x3 := by
  funext i
  obtain ⟨p, q, rfl⟩ : ∃ (p : Fin 2000) (q : Fin 128), i = ix2 p q := ⟨i 0, i 1, eq_ix2 i⟩
  unfold k2_pay3 Cert.Spec.rowScale
  show k2_pay1 x0 x1 x2 (ix2 p q)
      * broadcastTo S2000x128 (shapeCast S2000x1 x3 shapeCasts_S2000x1_S2000x1) broadcasts_S2000x1_S2000x128 (ix2 p q) = _
  rw [pay2_aff, shapeCast_self, Cert.LibRowOps.col_bcast_apply x3 _ p q]

/-- The index maps, decided over the ten grid points: the row-tiled windows move down the rows with the point, the
    bias window stays. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- What point `t` writes back to the first output is block `t` of the logistic stage of the input arrays. -/
theorem flushed2_enc (t : Fin cfg2.N) :
    (dat2 (F := Ideal) V c).flushed 4 t
      = ((cfg2.win 4).blk t).view.read (Elt Ideal) (Cert.Spec.squash (V c main_v38) (V c main_v15) (V c main_v39)) := by
  show (cfg2.win 4).cut (grid2.coords t) ((dat2 V c).after 4 t) = _
  rw [after2_4]
  unfold out2_4
  rw [View.canon_unit_zero hz]
  simp only [View.ld_unit_zero (S := S2000x128) hz, View.ld_unit_zero (S := S2000x1) hz, View.ld_unit_zero (S := S1x128) hz]
  rw [pay2_enc]
  obtain ⟨a0, a1, b0, b1, c0, c1, d0, d1, e0, e1, f0, f1⟩ := idx_facts2 t
  funext j
  show Cert.Spec.squash (iblk2 V c 0 t) (iblk2 V c 1 t) (iblk2 V c 2 t) j
    = Cert.Spec.squash (V c main_v38) (V c main_v15) (V c main_v39) (((cfg2.win 4).blk t).view.emb j)
  have hj0 : (j 0).val < 2000 := (j 0).isLt
  have hj1 : (j 1).val < 128 := (j 1).isLt
  refine squash_congr (V c main_v38) (V c main_v15) (V c main_v39) (iblk2 V c 0 t) (iblk2 V c 1 t) (iblk2 V c 2 t)
    (((cfg2.win 4).blk t).view.emb j) j ?_ ?_ ?_
  · show V c main_v38 (((cfg2.win 0).blk t).view.emb j) = V c main_v38 (((cfg2.win 4).blk t).view.emb j)
    refine congrArg (V c main_v38) (funext fun a => Fin.ext ?_)
    match a with
    | ⟨0, _⟩ => show win2_0.index t (0 : Fin 2) * 2000 + 1 * (j 0).val = win2_4.index t (0 : Fin 2) * 2000 + 1 * (j 0).val; omega
    | ⟨1, _⟩ => show win2_0.index t (1 : Fin 2) * 128 + 1 * (j 1).val = win2_4.index t (1 : Fin 2) * 128 + 1 * (j 1).val; omega
  · show V c main_v15 (((cfg2.win 1).blk t).view.emb (ix2 (Cert.Spec.rowOf j) (0 : Fin 1)))
      = V c main_v15 (ix2 (Cert.Spec.rowOf (((cfg2.win 4).blk t).view.emb j)) (0 : Fin 1))
    refine congrArg (V c main_v15) (funext fun a => Fin.ext ?_)
    match a with
    | ⟨0, _⟩ => show win2_1.index t (0 : Fin 2) * 2000 + 1 * (j 0).val = win2_4.index t (0 : Fin 2) * 2000 + 1 * (j 0).val; omega
    | ⟨1, _⟩ => show win2_1.index t (1 : Fin 2) * 1 + 1 * 0 = 0; omega
  · show V c main_v39 (((cfg2.win 2).blk t).view.emb (ix2 (0 : Fin 1) (Cert.Spec.colOf j)))
      = V c main_v39 (ix2 (0 : Fin 1) (Cert.Spec.colOf (((cfg2.win 4).blk t).view.emb j)))
    refine congrArg (V c main_v39) (funext fun a => Fin.ext ?_)
    match a with
    | ⟨0, _⟩ => show win2_2.index t (0 : Fin 2) * 1 + 1 * 0 = 0; omega
    | ⟨1, _⟩ => show win2_2.index t (1 : Fin 2) * 128 + 1 * (j 1).val = win2_4.index t (1 : Fin 2) * 128 + 1 * (j 1).val; omega

/-- What point `t` writes back to the second output is block `t` of the scaled stage of the input arrays. -/
theorem flushed2_next (t : Fin cfg2.N) :
    (dat2 (F := Ideal) V c).flushed 5 t
      = ((cfg2.win 5).blk t).view.read (Elt Ideal)
          (Cert.Spec.rowScale (Cert.Spec.affine (V c main_v38) (V c main_v15) (V c main_v39)) (V c main_v7)) := by
  show (cfg2.win 5).cut (grid2.coords t) ((dat2 V c).after 5 t) = _
  rw [after2_5]
  unfold out2_5
  rw [View.canon_unit_zero hz]
  simp only [View.ld_unit_zero (S := S2000x128) hz, View.ld_unit_zero (S := S2000x1) hz, View.ld_unit_zero (S := S1x128) hz]
  rw [pay2_next]
  obtain ⟨a0, a1, b0, b1, c0, c1, d0, d1, e0, e1, f0, f1⟩ := idx_facts2 t
  funext j
  show Cert.Spec.rowScale (Cert.Spec.affine (iblk2 V c 0 t) (iblk2 V c 1 t) (iblk2 V c 2 t)) (iblk2 V c 3 t) j
    = Cert.Spec.rowScale (Cert.Spec.affine (V c main_v38) (V c main_v15) (V c main_v39)) (V c main_v7)
        (((cfg2.win 5).blk t).view.emb j)
  have hj0 : (j 0).val < 2000 := (j 0).isLt
  have hj1 : (j 1).val < 128 := (j 1).isLt
  refine rowScale_congr (Cert.Spec.affine (V c main_v38) (V c main_v15) (V c main_v39)) (V c main_v7)
    (Cert.Spec.affine (iblk2 V c 0 t) (iblk2 V c 1 t) (iblk2 V c 2 t)) (iblk2 V c 3 t)
    (((cfg2.win 5).blk t).view.emb j) j ?_ ?_
  · refine affine_congr (V c main_v38) (V c main_v15) (V c main_v39) (iblk2 V c 0 t) (iblk2 V c 1 t) (iblk2 V c 2 t)
      (((cfg2.win 5).blk t).view.emb j) j ?_ ?_ ?_
    · show V c main_v38 (((cfg2.win 0).blk t).view.emb j) = V c main_v38 (((cfg2.win 5).blk t).view.emb j)
      refine congrArg (V c main_v38) (funext fun a => Fin.ext ?_)
      match a with
      | ⟨0, _⟩ => show win2_0.index t (0 : Fin 2) * 2000 + 1 * (j 0).val = win2_5.index t (0 : Fin 2) * 2000 + 1 * (j 0).val; omega
      | ⟨1, _⟩ => show win2_0.index t (1 : Fin 2) * 128 + 1 * (j 1).val = win2_5.index t (1 : Fin 2) * 128 + 1 * (j 1).val; omega
    · show V c main_v15 (((cfg2.win 1).blk t).view.emb (ix2 (Cert.Spec.rowOf j) (0 : Fin 1)))
        = V c main_v15 (ix2 (Cert.Spec.rowOf (((cfg2.win 5).blk t).view.emb j)) (0 : Fin 1))
      refine congrArg (V c main_v15) (funext fun a => Fin.ext ?_)
      match a with
      | ⟨0, _⟩ => show win2_1.index t (0 : Fin 2) * 2000 + 1 * (j 0).val = win2_5.index t (0 : Fin 2) * 2000 + 1 * (j 0).val; omega
      | ⟨1, _⟩ => show win2_1.index t (1 : Fin 2) * 1 + 1 * 0 = 0; omega
    · show V c main_v39 (((cfg2.win 2).blk t).view.emb (ix2 (0 : Fin 1) (Cert.Spec.colOf j)))
        = V c main_v39 (ix2 (0 : Fin 1) (Cert.Spec.colOf (((cfg2.win 5).blk t).view.emb j)))
      refine congrArg (V c main_v39) (funext fun a => Fin.ext ?_)
      match a with
      | ⟨0, _⟩ => show win2_2.index t (0 : Fin 2) * 1 + 1 * 0 = 0; omega
      | ⟨1, _⟩ => show win2_2.index t (1 : Fin 2) * 128 + 1 * (j 1).val = win2_5.index t (1 : Fin 2) * 128 + 1 * (j 1).val; omega
  · show V c main_v7 (((cfg2.win 3).blk t).view.emb (ix2 (Cert.Spec.rowOf j) (0 : Fin 1)))
      = V c main_v7 (ix2 (Cert.Spec.rowOf (((cfg2.win 5).blk t).view.emb j)) (0 : Fin 1))
    refine congrArg (V c main_v7) (funext fun a => Fin.ext ?_)
    match a with
    | ⟨0, _⟩ => show win2_3.index t (0 : Fin 2) * 2000 + 1 * (j 0).val = win2_5.index t (0 : Fin 2) * 2000 + 1 * (j 0).val; omega
    | ⟨1, _⟩ => show win2_3.index t (1 : Fin 2) * 1 + 1 * 0 = 0; omega

/-- An index of the first output array is in point `t`'s block iff each coordinate is in the block's range. -/
theorem mem_blk2_4 (t : Fin cfg2.N) (i : S20000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v40_0).slice (win2_4.rect t)).set ↔ _
  rw [View.set_slice_whole, Rect.mem_set_unit]
  exact Iff.rfl

/-- The same for the second output array. -/
theorem mem_blk2_5 (t : Fin cfg2.N) (i : S20000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v40_1).slice (win2_5.rect t)).set ↔ _
  rw [View.set_slice_whole, Rect.mem_set_unit]
  exact Iff.rfl

/-- Row r of the first output array lies in the block of point r / 2000. -/
theorem cover2_enc (i : S20000x128.Idx) : ∃ t : Fin cfg2.N, (cfg2.win 4).flush t = true ∧ i ∈ ((cfg2.win 4).blk t).view.set := by
  have hi0 : (i 0).val < 20000 := (i 0).isLt
  have hi1 : (i 1).val < 128 := (i 1).isLt
  have hN : cfg2.N = 10 := N_2
  obtain ⟨t, ht⟩ : ∃ t : Fin cfg2.N, t.val = (i 0).val / 2000 := ⟨⟨(i 0).val / 2000, by rw [hN]; omega⟩, rfl⟩
  obtain ⟨a0, a1, b0, b1, c0, c1, d0, d1, e0, e1, f0, f1⟩ := idx_facts2 t
  refine ⟨t, flush2_4 t, ?_⟩
  rw [mem_blk2_4]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 128 ≤ (i 1).val ∧ (i 1).val < win2_4.index t (1 : Fin 2) * 128 + 128; omega

/-- The same for the second output array. -/
theorem cover2_next (i : S20000x128.Idx) : ∃ t : Fin cfg2.N, (cfg2.win 5).flush t = true ∧ i ∈ ((cfg2.win 5).blk t).view.set := by
  have hi0 : (i 0).val < 20000 := (i 0).isLt
  have hi1 : (i 1).val < 128 := (i 1).isLt
  have hN : cfg2.N = 10 := N_2
  obtain ⟨t, ht⟩ : ∃ t : Fin cfg2.N, t.val = (i 0).val / 2000 := ⟨⟨(i 0).val / 2000, by rw [hN]; omega⟩, rfl⟩
  obtain ⟨a0, a1, b0, b1, c0, c1, d0, d1, e0, e1, f0, f1⟩ := idx_facts2 t
  refine ⟨t, flush2_5 t, ?_⟩
  rw [mem_blk2_5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- Region 2 leaves, in its first output array, the logistic of the normalised, biased aggregate. -/
theorem region2_array_enc : (dat2 (F := Ideal) V c).arrAt 4 cfg2.N
    = Cert.Spec.squash (V c main_v38) (V c main_v15) (V c main_v39) :=
  (dat2 V c).arrAt_eq_of_cover 4 (Cert.Spec.squash (V c main_v38) (V c main_v15) (V c main_v39))
    (fun t _ => flushed2_enc V c t) cover2_enc

/-- Region 2 leaves, in its second output array, that aggregate scaled per node. -/
theorem region2_array_next : (dat2 (F := Ideal) V c).arrAt 5 cfg2.N
    = Cert.Spec.rowScale (Cert.Spec.affine (V c main_v38) (V c main_v15) (V c main_v39)) (V c main_v7) :=
  (dat2 V c).arrAt_eq_of_cover 5 (Cert.Spec.rowScale (Cert.Spec.affine (V c main_v38) (V c main_v15) (V c main_v39)) (V c main_v7))
    (fun t _ => flushed2_next V c t) cover2_next

end Cert.KernelIdeal.RegA

end
-- ==== Proof.RegA4.lean ====
/-
  Region 4 (the decoder's epilogue): its output array is the logistic of the normalised, biased aggregate, for any
  region-entry contents.  The payload on blocks is the stage function of the blocks; a grid point writes back its
  block of the stage function of the arrays; the ten blocks cover the array.
-/
import proofs.«111293_j90314572300354_2_alg».proof.Proof.Gen.KernelIdeal.Frame
import proofs.«111293_j90314572300354_2_alg».proof.Proof.Spec
import proofs.«111293_j90314572300354_2_alg».proof.Proof.LibRowOps
import proofs.«111293_j90314572300354_2_alg».proof.Proof.RegA0
import Idealize.ShloMosaic.Lib.Pipeline.Value
import Idealize.ShloMosaic.Lib.ValueLayout

set_option maxRecDepth 16384

noncomputable section

namespace Cert.KernelIdeal.RegA

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b)) (c : Dev nD)

/-- The body's payload on a block: the logistic of the aggregate scaled per node plus the bias row. -/
theorem pay4 (x0 : Vec Ideal S2000x256 .f32) (x1 : Vec Ideal S2000x1 .f32) (x2 : Vec Ideal S1x256 .f32) :
    k4_pay1 x0 x1 x2 = Cert.Spec.squash x0 x1 x2 := by
  funext i
  obtain ⟨p, q, rfl⟩ : ∃ (p : Fin 2000) (q : Fin 256), i = ix2 p q := ⟨i 0, i 1, eq_ix2 i⟩
  unfold k4_pay1 Cert.Spec.squash Cert.Spec.affine
  show Ideal.logistic (shapeCast S2000x256 x0 shapeCasts_S2000x256_S2000x256 (ix2 p q)
        * broadcastTo S2000x256 (shapeCast S2000x1 x1 shapeCasts_S2000x1_S2000x1) broadcasts_S2000x1_S2000x256 (ix2 p q)
      + broadcastTo S2000x256 (shapeCast S1x256 x2 shapeCasts_S1x256_S1x256) broadcasts_S1x256_S2000x256 (ix2 p q)) = _
  rw [shapeCast_self, shapeCast_self, shapeCast_self, Cert.LibRowOps.col_bcast_apply x1 _ p q, broadcastTo_1b_ab_apply x2 _ p q]

/-- The index maps, decided over the ten grid points: the row-tiled windows move down the rows with the point, the
    bias window stays. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` of the logistic stage of the input arrays. -/
theorem flushed4_eq (t : Fin cfg4.N) :
    (dat4 (F := Ideal) V c).flushed 3 t
      = ((cfg4.win 3).blk t).view.read (Elt Ideal) (Cert.Spec.squash (V c main_v62) (V c main_v15) (V c main_v63)) := by
  show (cfg4.win 3).cut (grid4.coords t) ((dat4 V c).after 3 t) = _
  rw [after4_3]
  unfold out4_3
  rw [View.canon_unit_zero hz]
  simp only [View.ld_unit_zero (S := S2000x256) hz, View.ld_unit_zero (S := S2000x1) hz, View.ld_unit_zero (S := S1x256) hz]
  rw [pay4]
  obtain ⟨a0, a1, b0, b1, c0, c1, d0, d1⟩ := idx_facts4 t
  funext j
  show Cert.Spec.squash (iblk4 V c 0 t) (iblk4 V c 1 t) (iblk4 V c 2 t) j
    = Cert.Spec.squash (V c main_v62) (V c main_v15) (V c main_v63) (((cfg4.win 3).blk t).view.emb j)
  have hj0 : (j 0).val < 2000 := (j 0).isLt
  have hj1 : (j 1).val < 256 := (j 1).isLt
  refine squash_congr (V c main_v62) (V c main_v15) (V c main_v63) (iblk4 V c 0 t) (iblk4 V c 1 t) (iblk4 V c 2 t)
    (((cfg4.win 3).blk t).view.emb j) j ?_ ?_ ?_
  · show V c main_v62 (((cfg4.win 0).blk t).view.emb j) = V c main_v62 (((cfg4.win 3).blk t).view.emb j)
    refine congrArg (V c main_v62) (funext fun a => Fin.ext ?_)
    match a with
    | ⟨0, _⟩ => show win4_0.index t (0 : Fin 2) * 2000 + 1 * (j 0).val = win4_3.index t (0 : Fin 2) * 2000 + 1 * (j 0).val; omega
    | ⟨1, _⟩ => show win4_0.index t (1 : Fin 2) * 256 + 1 * (j 1).val = win4_3.index t (1 : Fin 2) * 256 + 1 * (j 1).val; omega
  · show V c main_v15 (((cfg4.win 1).blk t).view.emb (ix2 (Cert.Spec.rowOf j) (0 : Fin 1)))
      = V c main_v15 (ix2 (Cert.Spec.rowOf (((cfg4.win 3).blk t).view.emb j)) (0 : Fin 1))
    refine congrArg (V c main_v15) (funext fun a => Fin.ext ?_)
    match a with
    | ⟨0, _⟩ => show win4_1.index t (0 : Fin 2) * 2000 + 1 * (j 0).val = win4_3.index t (0 : Fin 2) * 2000 + 1 * (j 0).val; omega
    | ⟨1, _⟩ => show win4_1.index t (1 : Fin 2) * 1 + 1 * 0 = 0; omega
  · show V c main_v63 (((cfg4.win 2).blk t).view.emb (ix2 (0 : Fin 1) (Cert.Spec.colOf j)))
      = V c main_v63 (ix2 (0 : Fin 1) (Cert.Spec.colOf (((cfg4.win 3).blk t).view.emb j)))
    refine congrArg (V c main_v63) (funext fun a => Fin.ext ?_)
    match a with
    | ⟨0, _⟩ => show win4_2.index t (0 : Fin 2) * 1 + 1 * 0 = 0; omega
    | ⟨1, _⟩ => show win4_2.index t (1 : Fin 2) * 256 + 1 * (j 1).val = win4_3.index t (1 : Fin 2) * 256 + 1 * (j 1).val; omega

/-- An index of the output array is in point `t`'s block iff each coordinate is in the block's range. -/
theorem mem_blk4 (t : Fin cfg4.N) (i : S20000x256.Idx) :
    i ∈ ((cfg4.win 3).blk t).view.set ↔ ∀ a : Fin 2, win4_3.index t a * S2000x256.size a ≤ (i a).val ∧ (i a).val < win4_3.index t a * S2000x256.size a + S2000x256.size a := by
  show i ∈ ((View.whole main_v64).slice (win4_3.rect t)).set ↔ _
  rw [View.set_slice_whole, Rect.mem_set_unit]
  exact Iff.rfl

/-- Row r of the output array lies in the block of point r / 2000. -/
theorem cover4 (i : S20000x256.Idx) : ∃ t : Fin cfg4.N, (cfg4.win 3).flush t = true ∧ i ∈ ((cfg4.win 3).blk t).view.set := by
  have hi0 : (i 0).val < 20000 := (i 0).isLt
  have hi1 : (i 1).val < 256 := (i 1).isLt
  have hN : cfg4.N = 10 := N_4
  obtain ⟨t, ht⟩ : ∃ t : Fin cfg4.N, t.val = (i 0).val / 2000 := ⟨⟨(i 0).val / 2000, by rw [hN]; omega⟩, rfl⟩
  obtain ⟨a0, a1, b0, b1, c0, c1, d0, d1⟩ := idx_facts4 t
  refine ⟨t, flush4_3 t, ?_⟩
  rw [mem_blk4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 256 ≤ (i 1).val ∧ (i 1).val < win4_3.index t (1 : Fin 2) * 256 + 256; omega

/-- Region 4 leaves, in its output array, the logistic of the normalised, biased aggregate. -/
theorem region4_array : (dat4 (F := Ideal) V c).arrAt 3 cfg4.N
    = Cert.Spec.squash (V c main_v62) (V c main_v15) (V c main_v63) :=
  (dat4 V c).arrAt_eq_of_cover 3 (Cert.Spec.squash (V c main_v62) (V c main_v15) (V c main_v63))
    (fun t _ => flushed4_eq V c t) cover4

end Cert.KernelIdeal.RegA

end
-- ==== Proof.RegBPay.lean ====
/-
  The fused stage (project, normalise per row, add the bias row, clamp at zero, project again, scale per row) as a
  function of whole vectors at the ideal values, for any extents; the two fused payloads as instances of it; and the
  row-locality of the fused function (its value at an index needs that index's row of the row-tiled operands and the
  untiled operands whole).
-/
import proofs.«111293_j90314572300354_2_alg».proof.Proof.Gen.KernelIdeal.Frame
import proofs.«111293_j90314572300354_2_alg».proof.Proof.Spec
import proofs.«111293_j90314572300354_2_alg».proof.Proof.LibMatmul
import proofs.«111293_j90314572300354_2_alg».proof.Proof.LibRowOps
import Idealize.ShloMosaic.Lib.Pipeline.Value

noncomputable section
open scoped BigOperators
namespace Cert.KernelIdeal.RegB
open Idealize.ShloMosaic Idealize.ShloMosaic.ValueIdx Idealize.ShloMosaic.TcCoe Idealize.SL.Sem Cert.KernelIdeal Cert.KernelIdeal.Gen

section Generic
variable {a k h o : Nat}

/-- The first half of the fused stage on whole vectors: project, normalise per row, add the bias row, clamp at zero. -/
theorem hidden_vec
    (d1 : DotDims ⟨2, ![a, k]⟩ ⟨2, ![k, h]⟩ ⟨2, ![a, h]⟩)
    (e1 : d1.lhsBatch = []) (e2 : d1.lhsNonContracting = [0]) (e3 : d1.lhsContracting = [1])
    (e4 : d1.rhsBatch = []) (e5 : d1.rhsNonContracting = [1]) (e6 : d1.rhsContracting = [0])
    (v0 : FVec Ideal ⟨2, ![a, k]⟩ .f32) (v3 : FVec Ideal ⟨2, ![k, h]⟩ .f32)
    (v6 : FVec Ideal ⟨2, ![a, 1]⟩ .f32) (v10 : FVec Ideal ⟨2, ![1, h]⟩ .f32)
    (c0 : (⟨2, ![a, k]⟩ : Shape).ShapeCasts ⟨2, ![a, k]⟩) (c6 : (⟨2, ![a, 1]⟩ : Shape).ShapeCasts ⟨2, ![a, 1]⟩)
    (c10 : (⟨2, ![1, h]⟩ : Shape).ShapeCasts ⟨2, ![1, h]⟩)
    (b6 : (⟨2, ![a, 1]⟩ : Shape).Broadcasts ⟨2, ![a, h]⟩) (b10 : (⟨2, ![1, h]⟩ : Shape).Broadcasts ⟨2, ![a, h]⟩)
    (hb : FTy.bf16.bits < FTy.f32.bits) :
    maximumf (addf (mulf (FloatOps.matmul d1 none (truncf .bf16 (shapeCast ⟨2, ![a, k]⟩ v0 c0) hb) (truncf .bf16 v3 hb)
        (constant ⟨2, ![a, h]⟩ .f32 0x00000000#32))
      (broadcastTo ⟨2, ![a, h]⟩ (shapeCast ⟨2, ![a, 1]⟩ v6 c6) b6))
      (broadcastTo ⟨2, ![a, h]⟩ (shapeCast ⟨2, ![1, h]⟩ v10 c10) b10))
      (broadcast ⟨2, ![a, h]⟩ (Scalar.ofBits .f32 0x00000000#32))
    = Cert.Spec.hidden v0 v3 v6 v10 := by
  rw [shapeCast_self, shapeCast_self, shapeCast_self, Cert.LibMatmul.matmul_zero_eq d1 e1 e2 e3 e4 e5 e6 none]
  funext i
  obtain ⟨p, q, rfl⟩ : ∃ (p : Fin a) (q : Fin h), i = ix2 p q := ⟨i 0, i 1, eq_ix2 i⟩
  show max (Cert.LibMatmul.MM (truncf .bf16 v0 hb) (truncf .bf16 v3 hb) (ix2 p q)
      * broadcastTo ⟨2, ![a, h]⟩ v6 b6 (ix2 p q) + broadcastTo ⟨2, ![a, h]⟩ v10 b10 (ix2 p q)) (Ideal.ofBits .f32 0x00000000#32) = _
  rw [Cert.LibRowOps.col_bcast_apply, broadcastTo_1b_ab_apply]
  rfl

/-- The fused stage on whole vectors: the clamped layer projected again and scaled per row. -/
theorem fused_vec
    (d1 : DotDims ⟨2, ![a, k]⟩ ⟨2, ![k, h]⟩ ⟨2, ![a, h]⟩)
    (e1 : d1.lhsBatch = []) (e2 : d1.lhsNonContracting = [0]) (e3 : d1.lhsContracting = [1])
    (e4 : d1.rhsBatch = []) (e5 : d1.rhsNonContracting = [1]) (e6 : d1.rhsContracting = [0])
    (d2 : DotDims ⟨2, ![a, h]⟩ ⟨2, ![h, o]⟩ ⟨2, ![a, o]⟩)
    (f1 : d2.lhsBatch = []) (f2 : d2.lhsNonContracting = [0]) (f3 : d2.lhsContracting = [1])
    (f4 : d2.rhsBatch = []) (f5 : d2.rhsNonContracting = [1]) (f6 : d2.rhsContracting = [0])
    (v0 : FVec Ideal ⟨2, ![a, k]⟩ .f32) (v3 : FVec Ideal ⟨2, ![k, h]⟩ .f32)
    (v6 : FVec Ideal ⟨2, ![a, 1]⟩ .f32) (v10 : FVec Ideal ⟨2, ![1, h]⟩ .f32)
    (v17 : FVec Ideal ⟨2, ![h, o]⟩ .f32) (v20 : FVec Ideal ⟨2, ![a, 1]⟩ .f32)
    (c0 : (⟨2, ![a, k]⟩ : Shape).ShapeCasts ⟨2, ![a, k]⟩) (c6 : (⟨2, ![a, 1]⟩ : Shape).ShapeCasts ⟨2, ![a, 1]⟩)
    (c10 : (⟨2, ![1, h]⟩ : Shape).ShapeCasts ⟨2, ![1, h]⟩)
    (b6 : (⟨2, ![a, 1]⟩ : Shape).Broadcasts ⟨2, ![a, h]⟩) (b10 : (⟨2, ![1, h]⟩ : Shape).Broadcasts ⟨2, ![a, h]⟩)
    (b20 : (⟨2, ![a, 1]⟩ : Shape).Broadcasts ⟨2, ![a, o]⟩)
    (hb : FTy.bf16.bits < FTy.f32.bits) :
    mulf (FloatOps.matmul d2 none
        (truncf .bf16
          (maximumf (addf (mulf (FloatOps.matmul d1 none (truncf .bf16 (shapeCast ⟨2, ![a, k]⟩ v0 c0) hb) (truncf .bf16 v3 hb)
              (constant ⟨2, ![a, h]⟩ .f32 0x00000000#32))
            (broadcastTo ⟨2, ![a, h]⟩ (shapeCast ⟨2, ![a, 1]⟩ v6 c6) b6))
            (broadcastTo ⟨2, ![a, h]⟩ (shapeCast ⟨2, ![1, h]⟩ v10 c10) b10))
            (broadcast ⟨2, ![a, h]⟩ (Scalar.ofBits .f32 0x00000000#32))) hb)
        (truncf .bf16 v17 hb) (constant ⟨2, ![a, o]⟩ .f32 0x00000000#32))
      (broadcastTo ⟨2, ![a, o]⟩ (shapeCast ⟨2, ![a, 1]⟩ v20 c6) b20)
    = Cert.Spec.fusedPair v0 v3 v6 v10 v17 v20 := by
  rw [hidden_vec d1 e1 e2 e3 e4 e5 e6 v0 v3 v6 v10 c0 c6 c10 b6 b10 hb, shapeCast_self,
    Cert.LibMatmul.matmul_zero_eq d2 f1 f2 f3 f4 f5 f6 none]
  funext i
  obtain ⟨p, q, rfl⟩ : ∃ (p : Fin a) (q : Fin o), i = ix2 p q := ⟨i 0, i 1, eq_ix2 i⟩
  show Cert.LibMatmul.MM (truncf .bf16 (Cert.Spec.hidden v0 v3 v6 v10 : FVec Ideal ⟨2, ![a, h]⟩ .f32) hb : FVec Ideal ⟨2, ![a, h]⟩ .bf16)
      (truncf .bf16 v17 hb : FVec Ideal ⟨2, ![h, o]⟩ .bf16) (ix2 p q)
      * broadcastTo ⟨2, ![a, o]⟩ v20 b20 (ix2 p q) = _
  rw [Cert.LibRowOps.col_bcast_apply]
  rfl

end Generic

/-- The payload of the first fused stage is the fused function of its six loaded blocks. -/
theorem pay1 (v0 : Vec Ideal S2000x256 .f32) (v3 : Vec Ideal S256x800 .f32) (v6 : Vec Ideal S2000x1 .f32) (v10 : Vec Ideal S1x800 .f32)
    (v17 : Vec Ideal S800x128 .f32) (v20 : Vec Ideal S2000x1 .f32) :
    k1_pay1 v0 v3 v6 v10 v17 v20 = Cert.Spec.fusedPair v0 v3 v6 v10 v17 v20 :=
  fused_vec dot_S2000x256_S256x800_S2000x800_1_0_0_1_n_n rfl rfl rfl rfl rfl rfl
    dot_S2000x800_S800x128_S2000x128_1_0_0_1_n_n rfl rfl rfl rfl rfl rfl v0 v3 v6 v10 v17 v20
    shapeCasts_S2000x256_S2000x256 shapeCasts_S2000x1_S2000x1 shapeCasts_S1x800_S1x800
    broadcasts_S2000x1_S2000x800 broadcasts_S1x800_S2000x800 broadcasts_S2000x1_S2000x128 bitsLt_bf16_f32

/-- The payload of the second fused stage, likewise. -/
theorem pay3 (v0 : Vec Ideal S2000x128 .f32) (v3 : Vec Ideal S128x800 .f32) (v6 : Vec Ideal S2000x1 .f32) (v10 : Vec Ideal S1x800 .f32)
    (v17 : Vec Ideal S800x256 .f32) (v20 : Vec Ideal S2000x1 .f32) :
    k3_pay1 v0 v3 v6 v10 v17 v20 = Cert.Spec.fusedPair v0 v3 v6 v10 v17 v20 :=
  fused_vec dot_S2000x128_S128x800_S2000x800_1_0_0_1_n_n rfl rfl rfl rfl rfl rfl
    dot_S2000x800_S800x256_S2000x256_1_0_0_1_n_n rfl rfl rfl rfl rfl rfl v0 v3 v6 v10 v17 v20
    shapeCasts_S2000x128_S2000x128 shapeCasts_S2000x1_S2000x1 shapeCasts_S1x800_S1x800
    broadcasts_S2000x1_S2000x800 broadcasts_S1x800_S2000x800 broadcasts_S2000x1_S2000x256 bitsLt_bf16_f32

/-- The fused function at an index, written out. -/
theorem fusedPair_apply {a k h o : Nat} (A : Cert.Spec.Mat a k) (W1 : Cert.Spec.Mat k h) (nd : Cert.Spec.Mat a 1) (b : Cert.Spec.Mat 1 h) (W2 : Cert.Spec.Mat h o) (ns : Cert.Spec.Mat a 1)
    (i : (⟨2, ![a, o]⟩ : Shape).Idx) :
    Cert.Spec.fusedPair A W1 nd b W2 ns i
      = (∑ j : Fin h, max ((∑ l : Fin k, A (ix2 (Cert.Spec.rowOf i) l) * W1 (ix2 l j)) * nd (ix2 (Cert.Spec.rowOf i) (0 : Fin 1))
          + b (ix2 (0 : Fin 1) j)) Cert.Spec.zeroWord * W2 (ix2 j (Cert.Spec.colOf i))) * ns (ix2 (Cert.Spec.rowOf i) (0 : Fin 1)) := rfl

/-- The fused function is local to a row: its value at an index needs the row of the tiled operands at that index's
    row, and the untiled operands whole. -/
theorem fusedPair_congr {a a' k h o : Nat} (A : Cert.Spec.Mat a k) (A' : Cert.Spec.Mat a' k) (W1 W1' : Cert.Spec.Mat k h) (nd : Cert.Spec.Mat a 1) (nd' : Cert.Spec.Mat a' 1)
    (b b' : Cert.Spec.Mat 1 h) (W2 W2' : Cert.Spec.Mat h o) (ns : Cert.Spec.Mat a 1) (ns' : Cert.Spec.Mat a' 1)
    (i : (⟨2, ![a, o]⟩ : Shape).Idx) (j : (⟨2, ![a', o]⟩ : Shape).Idx)
    (hA : ∀ q : Fin k, A' (ix2 (Cert.Spec.rowOf j) q) = A (ix2 (Cert.Spec.rowOf i) q)) (hW1 : W1' = W1)
    (hnd : nd' (ix2 (Cert.Spec.rowOf j) (0 : Fin 1)) = nd (ix2 (Cert.Spec.rowOf i) (0 : Fin 1))) (hb : b' = b) (hW2 : W2' = W2)
    (hns : ns' (ix2 (Cert.Spec.rowOf j) (0 : Fin 1)) = ns (ix2 (Cert.Spec.rowOf i) (0 : Fin 1)))
    (hc : Cert.Spec.colOf j = Cert.Spec.colOf i) :
    Cert.Spec.fusedPair A' W1' nd' b' W2' ns' j = Cert.Spec.fusedPair A W1 nd b W2 ns i := by
  subst hW1 hb hW2
  rw [fusedPair_apply, fusedPair_apply, hc, hnd, hns]
  simp only [hA]

theorem hz : (![0, 0] : Fin 2 → Nat) = fun _ => 0 := funext fun a => by fin_cases a <;> rfl

end Cert.KernelIdeal.RegB
end
-- ==== Proof.RegB1.lean ====
/-
  The first fused region: its output array is the fused function of its six input arrays, for any region-entry contents.
  What a grid point writes back is the point's block of the fused function of the arrays as the region finds them
  (row t*2000 + j of the row-tiled arrays is row j of the point's blocks, the untiled arrays are their own blocks);
  the ten blocks cover the output array.
-/
import proofs.«111293_j90314572300354_2_alg».proof.Proof.Gen.KernelIdeal.Frame
import proofs.«111293_j90314572300354_2_alg».proof.Proof.Spec
import proofs.«111293_j90314572300354_2_alg».proof.Proof.RegBPay
import Idealize.ShloMosaic.Lib.Pipeline.Value

noncomputable section
open scoped BigOperators
namespace Cert.KernelIdeal.RegB
open Idealize.ShloMosaic Idealize.ShloMosaic.ValueIdx Idealize.ShloMosaic.TcCoe Idealize.SL.Sem Cert.KernelIdeal Cert.KernelIdeal.Gen
open Cert.Spec

variable (V : (c : Dev nD) → (b : Ref sig .tc) → Buf (Elt Ideal) ((c : Thread nD τ).loc b)) (c : Dev nD)

theorem idx_facts1 : ∀ t : Fin cfg1.N,
    win1_0.index t (0 : Fin 2) = win1_6.index t (0 : Fin 2) ∧ win1_0.index t (1 : Fin 2) = 0
    ∧ win1_1.index t (0 : Fin 2) = 0 ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = win1_6.index t (0 : Fin 2) ∧ win1_5.index t (1 : Fin 2) = 0
    ∧ win1_6.index t (0 : Fin 2) = t.val ∧ win1_6.index t (1 : Fin 2) = 0 :=
  (by decide +kernel : ∀ t : Fin grid1.N, _)

/-- What point `t` writes back is block `t` of the fused function of the arrays as the region finds them. -/
theorem flushed1_eq (t : Fin cfg1.N) :
    (dat1 (F := Ideal) V c).flushed 6 t = ((cfg1.win 6).blk t).view.read (Elt Ideal)
      (fusedPair (V c main_v26) (V c main_arg3) (V c main_v15) (V c main_v27) (V c main_arg5) (V c main_v7)) := by
  show (cfg1.win 6).cut (grid1.coords t) ((dat1 (F := Ideal) V c).after 6 t) = _
  rw [after1_6]
  unfold out1_6
  rw [View.canon_unit_zero hz]
  simp only [View.ld_unit_zero (S := S2000x256) hz, View.ld_unit_zero (S := S256x800) hz, View.ld_unit_zero (S := S2000x1) hz,
    View.ld_unit_zero (S := S1x800) hz, View.ld_unit_zero (S := S800x128) hz]
  rw [pay1]
  obtain ⟨e00, e01, e10, e11, e20, e21, e30, e31, e40, e41, e50, e51, e60, e61⟩ := idx_facts1 t
  funext j
  show fusedPair (iblk1 V c 0 t) (iblk1 V c 1 t) (iblk1 V c 2 t) (iblk1 V c 3 t) (iblk1 V c 4 t) (iblk1 V c 5 t) j
    = fusedPair (V c main_v26) (V c main_arg3) (V c main_v15) (V c main_v27) (V c main_arg5) (V c main_v7)
        (((cfg1.win 6).blk t).view.emb j)
  refine fusedPair_congr _ _ _ _ _ _ _ _ _ _ _ _ _ _ (fun q => ?_) (funext fun x => ?_) ?_ (funext fun x => ?_) (funext fun x => ?_) ?_ ?_
  · show V c main_v26 (((cfg1.win 0).blk t).view.emb (ix2 (rowOf j) q)) = V c main_v26 (ix2 (rowOf (((cfg1.win 6).blk t).view.emb j)) q)
    refine congrArg (V c main_v26) (funext fun a => Fin.ext ?_)
    match a with
    | ⟨0, _⟩ => show win1_0.index t (0 : Fin 2) * 2000 + 1 * (j 0).val = win1_6.index t (0 : Fin 2) * 2000 + 1 * (j 0).val; omega
    | ⟨1, _⟩ => show win1_0.index t (1 : Fin 2) * 256 + 1 * q.val = q.val; omega
  · show V c main_arg3 (((cfg1.win 1).blk t).view.emb x) = V c main_arg3 x
    refine congrArg (V c main_arg3) (funext fun a => Fin.ext ?_)
    match a with
    | ⟨0, _⟩ => show win1_1.index t (0 : Fin 2) * 256 + 1 * (x 0).val = (x 0).val; omega
    | ⟨1, _⟩ => show win1_1.index t (1 : Fin 2) * 800 + 1 * (x 1).val = (x 1).val; omega
  · show V c main_v15 (((cfg1.win 2).blk t).view.emb (ix2 (rowOf j) (0 : Fin 1))) = V c main_v15 (ix2 (rowOf (((cfg1.win 6).blk t).view.emb j)) (0 : Fin 1))
    refine congrArg (V c main_v15) (funext fun a => Fin.ext ?_)
    match a with
    | ⟨0, _⟩ => show win1_2.index t (0 : Fin 2) * 2000 + 1 * (j 0).val = win1_6.index t (0 : Fin 2) * 2000 + 1 * (j 0).val; omega
    | ⟨1, _⟩ => show win1_2.index t (1 : Fin 2) * 1 + 1 * 0 = 0; omega
  · show V c main_v27 (((cfg1.win 3).blk t).view.emb x) = V c main_v27 x
    refine congrArg (V c main_v27) (funext fun a => Fin.ext ?_)
    match a with
    | ⟨0, _⟩ => show win1_3.index t (0 : Fin 2) * 1 + 1 * (x 0).val = (x 0).val; omega
    | ⟨1, _⟩ => show win1_3.index t (1 : Fin 2) * 800 + 1 * (x 1).val = (x 1).val; omega
  · show V c main_arg5 (((cfg1.win 4).blk t).view.emb x) = V c main_arg5 x
    refine congrArg (V c main_arg5) (funext fun a => Fin.ext ?_)
    match a with
    | ⟨0, _⟩ => show win1_4.index t (0 : Fin 2) * 800 + 1 * (x 0).val = (x 0).val; omega
    | ⟨1, _⟩ => show win1_4.index t (1 : Fin 2) * 128 + 1 * (x 1).val = (x 1).val; omega
  · show V c main_v7 (((cfg1.win 5).blk t).view.emb (ix2 (rowOf j) (0 : Fin 1))) = V c main_v7 (ix2 (rowOf (((cfg1.win 6).blk t).view.emb j)) (0 : Fin 1))
    refine congrArg (V c main_v7) (funext fun a => Fin.ext ?_)
    match a with
    | ⟨0, _⟩ => show win1_5.index t (0 : Fin 2) * 2000 + 1 * (j 0).val = win1_6.index t (0 : Fin 2) * 2000 + 1 * (j 0).val; omega
    | ⟨1, _⟩ => show win1_5.index t (1 : Fin 2) * 1 + 1 * 0 = 0; omega
  · apply Fin.ext
    show (j 1).val = win1_6.index t (1 : Fin 2) * 128 + 1 * (j 1).val
    omega

/-- An index of the array is in point `t`'s block iff each coordinate is in the block's range on its axis. -/
theorem mem_blk1 (t : Fin cfg1.N) (i : S20000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v28).slice (win1_6.rect t)).set ↔ _
  rw [View.set_slice_whole, Rect.mem_set_unit]
  exact Iff.rfl

/-- Row r of the array lies in the block of point r / 2000. -/
theorem cover1 (i : S20000x128.Idx) : ∃ t : Fin cfg1.N, (cfg1.win 6).flush t = true ∧ i ∈ ((cfg1.win 6).blk t).view.set := by
  have hi0 : (i 0).val < 20000 := (i 0).isLt
  have hi1 : (i 1).val < 128 := (i 1).isLt
  have hN : cfg1.N = 10 := N_1
  obtain ⟨t, ht⟩ : ∃ t : Fin cfg1.N, t.val = (i 0).val / 2000 := ⟨⟨(i 0).val / 2000, by rw [hN]; omega⟩, rfl⟩
  obtain ⟨e00, e01, e10, e11, e20, e21, e30, e31, e40, e41, e50, e51, e60, e61⟩ := idx_facts1 t
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The region leaves, in its output array, the fused function of its six input arrays. -/
theorem region1_array : (dat1 (F := Ideal) V c).arrAt 6 cfg1.N
    = Cert.Spec.fusedPair (V c main_v26) (V c main_arg3) (V c main_v15) (V c main_v27) (V c main_arg5) (V c main_v7) :=
  (dat1 (F := Ideal) V c).arrAt_eq_of_cover 6 (Cert.Spec.fusedPair (V c main_v26) (V c main_arg3) (V c main_v15) (V c main_v27) (V c main_arg5) (V c main_v7))
    (fun t _ => flushed1_eq V c t) cover1

end Cert.KernelIdeal.RegB
end
-- ==== Proof.RegB3.lean ====
/-
  The second fused region: its output array is the fused function of its six input arrays, for any region-entry contents.
  What a grid point writes back is the point's block of the fused function of the arrays as the region finds them
  (row t*2000 + j of the row-tiled arrays is row j of the point's blocks, the untiled arrays are their own blocks);
  the ten blocks cover the output array.
-/
import proofs.«111293_j90314572300354_2_alg».proof.Proof.Gen.KernelIdeal.Frame
import proofs.«111293_j90314572300354_2_alg».proof.Proof.Spec
import proofs.«111293_j90314572300354_2_alg».proof.Proof.RegBPay
import Idealize.ShloMosaic.Lib.Pipeline.Value

noncomputable section
open scoped BigOperators
namespace Cert.KernelIdeal.RegB
open Idealize.ShloMosaic Idealize.ShloMosaic.ValueIdx Idealize.ShloMosaic.TcCoe Idealize.SL.Sem Cert.KernelIdeal Cert.KernelIdeal.Gen
open Cert.Spec

variable (V : (c : Dev nD) → (b : Ref sig .tc) → Buf (Elt Ideal) ((c : Thread nD τ).loc b)) (c : Dev nD)

theorem idx_facts3 : ∀ t : Fin cfg3.N,
    win3_0.index t (0 : Fin 2) = win3_6.index t (0 : Fin 2) ∧ win3_0.index t (1 : Fin 2) = 0
    ∧ win3_1.index t (0 : Fin 2) = 0 ∧ win3_1.index t (1 : Fin 2) = 0
    ∧ win3_2.index t (0 : Fin 2) = win3_6.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = win3_6.index t (0 : Fin 2) ∧ win3_5.index t (1 : Fin 2) = 0
    ∧ win3_6.index t (0 : Fin 2) = t.val ∧ win3_6.index t (1 : Fin 2) = 0 :=
  (by decide +kernel : ∀ t : Fin grid3.N, _)

/-- What point `t` writes back is block `t` of the fused function of the arrays as the region finds them. -/
theorem flushed3_eq (t : Fin cfg3.N) :
    (dat3 (F := Ideal) V c).flushed 6 t = ((cfg3.win 6).blk t).view.read (Elt Ideal)
      (fusedPair (V c main_v50) (V c main_arg7) (V c main_v15) (V c main_v51) (V c main_arg9) (V c main_v7)) := by
  show (cfg3.win 6).cut (grid3.coords t) ((dat3 (F := Ideal) V c).after 6 t) = _
  rw [after3_6]
  unfold out3_6
  rw [View.canon_unit_zero hz]
  simp only [View.ld_unit_zero (S := S2000x128) hz, View.ld_unit_zero (S := S128x800) hz, View.ld_unit_zero (S := S2000x1) hz,
    View.ld_unit_zero (S := S1x800) hz, View.ld_unit_zero (S := S800x256) hz]
  rw [pay3]
  obtain ⟨e00, e01, e10, e11, e20, e21, e30, e31, e40, e41, e50, e51, e60, e61⟩ := idx_facts3 t
  funext j
  show fusedPair (iblk3 V c 0 t) (iblk3 V c 1 t) (iblk3 V c 2 t) (iblk3 V c 3 t) (iblk3 V c 4 t) (iblk3 V c 5 t) j
    = fusedPair (V c main_v50) (V c main_arg7) (V c main_v15) (V c main_v51) (V c main_arg9) (V c main_v7)
        (((cfg3.win 6).blk t).view.emb j)
  refine fusedPair_congr _ _ _ _ _ _ _ _ _ _ _ _ _ _ (fun q => ?_) (funext fun x => ?_) ?_ (funext fun x => ?_) (funext fun x => ?_) ?_ ?_
  · show V c main_v50 (((cfg3.win 0).blk t).view.emb (ix2 (rowOf j) q)) = V c main_v50 (ix2 (rowOf (((cfg3.win 6).blk t).view.emb j)) q)
    refine congrArg (V c main_v50) (funext fun a => Fin.ext ?_)
    match a with
    | ⟨0, _⟩ => show win3_0.index t (0 : Fin 2) * 2000 + 1 * (j 0).val = win3_6.index t (0 : Fin 2) * 2000 + 1 * (j 0).val; omega
    | ⟨1, _⟩ => show win3_0.index t (1 : Fin 2) * 128 + 1 * q.val = q.val; omega
  · show V c main_arg7 (((cfg3.win 1).blk t).view.emb x) = V c main_arg7 x
    refine congrArg (V c main_arg7) (funext fun a => Fin.ext ?_)
    match a with
    | ⟨0, _⟩ => show win3_1.index t (0 : Fin 2) * 128 + 1 * (x 0).val = (x 0).val; omega
    | ⟨1, _⟩ => show win3_1.index t (1 : Fin 2) * 800 + 1 * (x 1).val = (x 1).val; omega
  · show V c main_v15 (((cfg3.win 2).blk t).view.emb (ix2 (rowOf j) (0 : Fin 1))) = V c main_v15 (ix2 (rowOf (((cfg3.win 6).blk t).view.emb j)) (0 : Fin 1))
    refine congrArg (V c main_v15) (funext fun a => Fin.ext ?_)
    match a with
    | ⟨0, _⟩ => show win3_2.index t (0 : Fin 2) * 2000 + 1 * (j 0).val = win3_6.index t (0 : Fin 2) * 2000 + 1 * (j 0).val; omega
    | ⟨1, _⟩ => show win3_2.index t (1 : Fin 2) * 1 + 1 * 0 = 0; omega
  · show V c main_v51 (((cfg3.win 3).blk t).view.emb x) = V c main_v51 x
    refine congrArg (V c main_v51) (funext fun a => Fin.ext ?_)
    match a with
    | ⟨0, _⟩ => show win3_3.index t (0 : Fin 2) * 1 + 1 * (x 0).val = (x 0).val; omega
    | ⟨1, _⟩ => show win3_3.index t (1 : Fin 2) * 800 + 1 * (x 1).val = (x 1).val; omega
  · show V c main_arg9 (((cfg3.win 4).blk t).view.emb x) = V c main_arg9 x
    refine congrArg (V c main_arg9) (funext fun a => Fin.ext ?_)
    match a with
    | ⟨0, _⟩ => show win3_4.index t (0 : Fin 2) * 800 + 1 * (x 0).val = (x 0).val; omega
    | ⟨1, _⟩ => show win3_4.index t (1 : Fin 2) * 256 + 1 * (x 1).val = (x 1).val; omega
  · show V c main_v7 (((cfg3.win 5).blk t).view.emb (ix2 (rowOf j) (0 : Fin 1))) = V c main_v7 (ix2 (rowOf (((cfg3.win 6).blk t).view.emb j)) (0 : Fin 1))
    refine congrArg (V c main_v7) (funext fun a => Fin.ext ?_)
    match a with
    | ⟨0, _⟩ => show win3_5.index t (0 : Fin 2) * 2000 + 1 * (j 0).val = win3_6.index t (0 : Fin 2) * 2000 + 1 * (j 0).val; omega
    | ⟨1, _⟩ => show win3_5.index t (1 : Fin 2) * 1 + 1 * 0 = 0; omega
  · apply Fin.ext
    show (j 1).val = win3_6.index t (1 : Fin 2) * 256 + 1 * (j 1).val
    omega

/-- An index of the array is in point `t`'s block iff each coordinate is in the block's range on its axis. -/
theorem mem_blk3 (t : Fin cfg3.N) (i : S20000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v52).slice (win3_6.rect t)).set ↔ _
  rw [View.set_slice_whole, Rect.mem_set_unit]
  exact Iff.rfl

/-- Row r of the array lies in the block of point r / 2000. -/
theorem cover3 (i : S20000x256.Idx) : ∃ t : Fin cfg3.N, (cfg3.win 6).flush t = true ∧ i ∈ ((cfg3.win 6).blk t).view.set := by
  have hi0 : (i 0).val < 20000 := (i 0).isLt
  have hi1 : (i 1).val < 256 := (i 1).isLt
  have hN : cfg3.N = 10 := N_3
  obtain ⟨t, ht⟩ : ∃ t : Fin cfg3.N, t.val = (i 0).val / 2000 := ⟨⟨(i 0).val / 2000, by rw [hN]; omega⟩, rfl⟩
  obtain ⟨e00, e01, e10, e11, e20, e21, e30, e31, e40, e41, e50, e51, e60, e61⟩ := idx_facts3 t
  refine ⟨t, flush3_6 t, ?_⟩
  rw [mem_blk3]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 256 ≤ (i 1).val ∧ (i 1).val < win3_6.index t (1 : Fin 2) * 256 + 256; omega

/-- The region leaves, in its output array, the fused function of its six input arrays. -/
theorem region3_array : (dat3 (F := Ideal) V c).arrAt 6 cfg3.N
    = Cert.Spec.fusedPair (V c main_v50) (V c main_arg7) (V c main_v15) (V c main_v51) (V c main_arg9) (V c main_v7) :=
  (dat3 (F := Ideal) V c).arrAt_eq_of_cover 6 (Cert.Spec.fusedPair (V c main_v50) (V c main_arg7) (V c main_v15) (V c main_v51) (V c main_arg9) (V c main_v7))
    (fun t _ => flushed3_eq V c t) cover3

end Cert.KernelIdeal.RegB
end
-- ==== Proof.lean ====
/-
  A four-layer graph-convolution auto-encoder (20000 nodes, 320000 edges) written as five row-tiled kernels with the
  edge gather-and-sum between them, against its plain reference, on the extended reals.

  Both programs compute, per layer, D_in^(-1/2) A D_out^(-1/2) X W + b with the same degree normalisers (the inverse
  square root of max(degree, 1), by the same host operations).  The kernel fuses, for each pair of layers, the first
  layer's projection, normalisation, bias and relu with the second layer's projection and source-side scaling in one
  tile of 2000 rows, and fuses the normalise-bias-logistic epilogues; its matrix products take operands rounded to a
  narrower format, which is the identity on the extended reals, and accumulate from zero, which is the plain sum.
  Every stage is row-local — output row p needs row p of the tiled operands and all of the untiled ones — so the
  tiles of a stage are the blocks of one whole-array function (Spec), and the whole-array functions compose with the
  shared aggregation into the encoder's and the decoder's values (Chain).  The reference's printed term is the same
  composition with the normalisers and biases laid out by broadcasts instead of reshapes and the logistic function
  spelt 1 / (1 + exp (-h)).  No law that needs finiteness is used: the two sides are the same sums and products in
  the same order, so the precondition is never opened.

  The three frames are the generated ones (the reference's is its generated run with the results dropped); the
  idealization rewrote nothing, so `preserves` is trivial.
-/
import proofs.«111293_j90314572300354_2_alg».proof.Defs
import proofs.«111293_j90314572300354_2_alg».proof.Proof.Gen.Kernel
import proofs.«111293_j90314572300354_2_alg».proof.Proof.Gen.Kernel.Skeleton
import proofs.«111293_j90314572300354_2_alg».proof.Proof.Gen.Kernel.Launch
import proofs.«111293_j90314572300354_2_alg».proof.Proof.Gen.Kernel.Points
import proofs.«111293_j90314572300354_2_alg».proof.Proof.Gen.Kernel.Frame
import proofs.«111293_j90314572300354_2_alg».proof.Proof.Gen.KernelIdeal
import proofs.«111293_j90314572300354_2_alg».proof.Proof.Gen.KernelIdeal.Skeleton
import proofs.«111293_j90314572300354_2_alg».proof.Proof.Gen.KernelIdeal.Launch
import proofs.«111293_j90314572300354_2_alg».proof.Proof.Gen.KernelIdeal.Points
import proofs.«111293_j90314572300354_2_alg».proof.Proof.Gen.KernelIdeal.Frame
import proofs.«111293_j90314572300354_2_alg».proof.Proof.Gen.ReferenceIdeal
import proofs.«111293_j90314572300354_2_alg».proof.Proof.Gen.ReferenceIdeal.Run
import proofs.«111293_j90314572300354_2_alg».proof.Proof.Gen.Pre_finite_inputs
import proofs.«111293_j90314572300354_2_alg».proof.Proof.KRun
import proofs.«111293_j90314572300354_2_alg».proof.Proof.Fold
import proofs.«111293_j90314572300354_2_alg».proof.Proof.RefSide
import proofs.«111293_j90314572300354_2_alg».proof.Proof.RegA0
import proofs.«111293_j90314572300354_2_alg».proof.Proof.RegA2
import proofs.«111293_j90314572300354_2_alg».proof.Proof.RegA4
import proofs.«111293_j90314572300354_2_alg».proof.Proof.RegB1
import proofs.«111293_j90314572300354_2_alg».proof.Proof.RegB3
import Idealize.ShloMosaic.Adequacy
import Idealize.ShloMosaic.Init

noncomputable section

namespace Cert.Proof

open Idealize.ShloMosaic Idealize.SL.Sem

/-- Each region's output array is its stage of the whole arrays the region found. -/
theorem regionValues : Cert.KernelIdeal.Fold.RegionValues :=
  ⟨Cert.KernelIdeal.RegA.region0_array, Cert.KernelIdeal.RegB.region1_array, Cert.KernelIdeal.RegA.region2_array_enc,
    Cert.KernelIdeal.RegA.region2_array_next, Cert.KernelIdeal.RegB.region3_array, Cert.KernelIdeal.RegA.region4_array⟩

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization is the program's own text read on the extended reals. -/
theorem preserves : Cert.preserves_Kernel_KernelIdeal := trivial

/-- From memories agreeing on the arguments both programs end with the encoder's and the decoder's values of those
    arguments: the kernel by its run read through the fold of its segments, the reference by its run's term. -/
theorem algebraic : Cert.algebraic_KernelIdeal_ReferenceIdeal := by
  intro m ρ m' ρ' _ hagree
  refine ⟨fun c => Cert.KernelIdeal.Chain.encoded (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.KernelIdeal.Chain.decoded (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run (Cert.KernelIdeal.defs (F := Ideal)) _ _).mono
      (fun r h c => ⟨(h c).1.trans (Cert.KernelIdeal.Fold.w10_v40_0 regionValues m ρ c),
        (h c).2.1.trans (Cert.KernelIdeal.Fold.w10_v64 regionValues m ρ c), (h c).2.2⟩)
      (Cert.KernelIdeal.RunVal.run_values (F := Ideal) m ρ)
  · refine (θ_run (Cert.ReferenceIdeal.defs (F := Ideal)) _ _).mono
      (fun r h c => ⟨(h c).1.trans ?_, (h c).2.1.trans ?_, (h c).2.2⟩)
      (Cert.ReferenceIdeal.Value.run (F := Ideal) m' ρ')
    · rw [Cert.ReferenceIdeal.RefValue.encoded_eq m' c Cert.KernelIdeal.Facts₀.shapeCasts_S20000_S20000x1
        Cert.KernelIdeal.Facts₀.shapeCasts_S128_S1x128 Cert.KernelIdeal.Facts₀.shapeCasts_S800_S1x800,
        (hagree c).1, (hagree c).2.1, (hagree c).2.2.1, (hagree c).2.2.2.1, (hagree c).2.2.2.2.1, (hagree c).2.2.2.2.2.1, (hagree c).2.2.2.2.2.2.1]
    · rw [Cert.ReferenceIdeal.RefValue.decoded_eq m' c Cert.KernelIdeal.Facts₀.shapeCasts_S20000_S20000x1
        Cert.KernelIdeal.Facts₀.shapeCasts_S128_S1x128 Cert.KernelIdeal.Facts₀.shapeCasts_S800_S1x800
        Cert.KernelIdeal.Facts₀.shapeCasts_S256_S1x256,
        (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
